-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S10000x512 .f32) (main_arg1 : FVec F S10000x10000 .f32) (main_arg2 : FVec F S512x512 .f32) (main_arg3 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S200x512 : Shape := ⟨2, ![200, 512]⟩
abbrev S200x10000 : Shape := ⟨2, ![200, 10000]⟩
abbrev S1000x10000 : Shape := ⟨2, ![1000, 10000]⟩
abbrev S1000x512 : Shape := ⟨2, ![1000, 512]⟩
abbrev S1000 : Shape := ⟨1, ![1000]⟩
abbrev S1000x1 : Shape := ⟨2, ![1000, 1]⟩

abbrev nBuf : Space → Nat
  | .hbm => 9
  | .vmem => 16
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512x512, .f32⟩
  | .hbm, ⟨4, _⟩ => ⟨S512x512, .bf16⟩
  | .hbm, ⟨5, _⟩ => ⟨S512x512, .bf16⟩
  | .hbm, ⟨6, _⟩ => ⟨S10000x10000, .bf16⟩
  | .hbm, ⟨7, _⟩ => ⟨S10000x512, .bf16⟩
  | .hbm, ⟨8, _⟩ => ⟨S10000x512, .f32⟩
  | .local _ .vmem, ⟨0, _⟩ => ⟨S200x512, .f32⟩
  | .local _ .vmem, ⟨1, _⟩ => ⟨S200x512, .f32⟩
  | .local _ .vmem, ⟨2, _⟩ => ⟨S200x10000, .f32⟩
  | .local _ .vmem, ⟨3, _⟩ => ⟨S200x10000, .f32⟩
  | .local _ .vmem, ⟨4, _⟩ => ⟨S512x512, .bf16⟩
  | .local _ .vmem, ⟨5, _⟩ => ⟨S512x512, .bf16⟩
  | .local _ .vmem, ⟨6, _⟩ => ⟨S200x10000, .bf16⟩
  | .local _ .vmem, ⟨7, _⟩ => ⟨S200x10000, .bf16⟩
  | .local _ .vmem, ⟨8, _⟩ => ⟨S200x512, .bf16⟩
  | .local _ .vmem, ⟨9, _⟩ => ⟨S200x512, .bf16⟩
  | .local _ .vmem, ⟨10, _⟩ => ⟨S10000x512, .bf16⟩
  | .local _ .vmem, ⟨11, _⟩ => ⟨S1000x10000, .bf16⟩
  | .local _ .vmem, ⟨12, _⟩ => ⟨S1000x10000, .bf16⟩
  | .local _ .vmem, ⟨13, _⟩ => ⟨S10000x512, .bf16⟩
  | .local _ .vmem, ⟨14, _⟩ => ⟨S1000x512, .f32⟩
  | .local _ .vmem, ⟨15, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 50], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c200_i32 : BitVec 32 := 200#32
  let v12 : BitVec 32 := Scalar.muli arg1 c200_i32
  let v13 : Index := Scalar.indexCast v12
  let c0_5 : Index := 0#32
  ![v13.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c49_i32 : BitVec 32 := 49#32
  let v1 : BitVec 32 := Scalar.select v0 arg1 c49_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S200x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S200x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S200x512_S200x512_0_0 : ∀ a, (![0, 0] : Fin 2 → Nat) a + S200x512.size a ≤ S200x512.size a
  h_S200x512 : 0 < S200x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S200x512_S200x512 : S200x512.ShapeCasts S200x512
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  packedbf16_S200x512_S200x512_0_0 : (Rect.unit (s := S200x512) ![0, 0] S200x512.size inb_S200x512_S200x512_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  shapeCasts_S10000x512_S10000x512 : S10000x512.ShapeCasts S10000x512
  reduces_S1000x512_S1000 : S1000x512.Reduces [1] S1000
  shapeCasts_S1000_S1000x1 : S1000.ShapeCasts S1000x1
  broadcasts_S1000x1_S1000x512 : S1000x1.Broadcasts S1000x512
  inb_S1000x512_S1000x512_0_0 : ∀ a, (![0, 0] : Fin 2 → Nat) a + S1000x512.size a ≤ S1000x512.size a
  h_S1000x512 : 0 < S1000x512.numel
  dot_S200x512_S512x512_S200x512_1_1_0_0_n_n_wf : DotDims.WF S200x512 S512x512 S200x512 [1] [1] [0] [0] [] []
  dot_S200x10000_S10000x512_S200x512_1_0_0_1_n_n_wf : DotDims.WF S200x10000 S10000x512 S200x512 [1] [0] [0] [1] [] []
  dot_S1000x10000_S10000x512_S1000x512_1_0_0_1_n_n_wf : DotDims.WF S1000x10000 S10000x512 S1000x512 [1] [0] [0] [1] [] []
  hrank0 : 0 < grid0.rank
  k0_off1_inb : ∀ i : grid0.Coords, ∀ (k0_h1 : k0_cond1 i = 1#1), ∀ a, (k0_off1 i) a + S200x512.size a ≤ S10000x512.size a
  k0_off1_packedbf16 : ∀ i : grid0.Coords, ∀ (k0_h1 : k0_cond1 i = 1#1), (Rect.unit (s := S10000x512) (k0_off1 i) S200x512.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x512.size a ≤ S10000x512.size a
  hwx0_0 : ∀ i : grid0.Coords, EltTy.bits .f32 = 32 ∨ (Rect.block (s := S10000x512) S200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .bf16 = 32 ∨ (Rect.block (s := S10000x10000) S200x10000.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x512.size a ≤ S10000x512.size a
  hwx0_5 : ∀ i : grid0.Coords, EltTy.bits .bf16 = 32 ∨ (Rect.block (s := S10000x512) S200x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)

variable [Facts₀]

def dot_S200x512_S512x512_S200x512_1_1_0_0_n_n : DotDims S200x512 S512x512 S200x512 where
  lhsContracting := [1]
  rhsContracting := [1]
  lhsNonContracting := [0]
  rhsNonContracting := [0]
  lhsBatch := []
  rhsBatch := []
  wf := dot_S200x512_S512x512_S200x512_1_1_0_0_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S1000x10000_S10000x512_S1000x512_1_0_0_1_n_n : DotDims S1000x10000 S10000x512 S1000x512 where
  lhsContracting := [1]
  rhsContracting := [0]
  lhsNonContracting := [0]
  rhsNonContracting := [1]
  lhsBatch := []
  rhsBatch := []
  wf := dot_S1000x10000_S10000x512_S1000x512_1_0_0_1_n_n_wf

abbrev win0_0 : Pipeline.Window sig grid0 :=
  Pipeline.Window.ofSpec (Memref.whole main_arg0) S200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S200x10000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S200x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩
abbrev S10000 : Shape := ⟨1, ![10000]⟩
abbrev S10000x1 : Shape := ⟨2, ![10000, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S10000x512, .f32⟩
  | .hbm, ⟨6, _⟩ => ⟨S10000x512, .f32⟩
  | .hbm, ⟨7, _⟩ => ⟨S_, .f32⟩
  | .hbm, ⟨8, _⟩ => ⟨S10000x512, .f32⟩
  | .hbm, ⟨9, _⟩ => ⟨S10000x512, .f32⟩
  | .hbm, ⟨10, _⟩ => ⟨S512x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S10000x512, .f32⟩
  | .hbm, ⟨20, _⟩ => ⟨S10000x512, .f32⟩
  | .hbm, ⟨21, _⟩ => ⟨S10000x512, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S10000x512, .f32⟩
  | .hbm, ⟨27, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v7 : Ref sig .tc := ⟨.hbm, 27, rfl⟩

abbrev nD : Nat := 1
abbrev τ : Topo := Topo.v7x

variable {F : FTy → Type} [FloatOps F]

class Facts₀ : Prop where
  transposes_S512x512_S512x512_1_0 : S512x512.Transposes [1, 0] S512x512
  bcast_S_S10000x512 : S_.BroadcastsInDim S10000x512 (![] : Fin 0 → Fin S10000x512.rank)
  reducesTo_S10000x512_S10000_d1 : S10000x512.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Pass1Body.lean ====
/-
  The first pallas_call of the kernel, on its grid of 2 × 50 points, point t = 50·p + i.
  Phase p = 0: point i multiplies rows 200·i … 200·i + 199 of x by W1ᵀ and stores the 200×512 product into
  those rows of a 10000×512 scratch buffer that lives through the whole call.
  Phase p = 1: point i copies its 200×10000 tile of the adjacency matrix to the first output, multiplies the tile by
  the whole scratch, clamps at zero, multiplies by W2ᵀ, and stores the 200×512 result into the second output's tile.
  This module: which points are in which phase, where the phase-0 slab sits, and the body's run in each phase, at
  any float instance.
-/
import proofs.«146001_g69913477644666_cont_9to1_m_1327_16_alg».proof.Proof.Gen.KernelIdeal.Launch
import proofs.«146001_g69913477644666_cont_9to1_m_1327_16_alg».proof.Proof.Gen.KernelIdeal.Skeleton
import proofs.«146001_g69913477644666_cont_9to1_m_1327_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: two phases of fifty points -/

/-- The first fifty points are phase 0 … -/
theorem phase0_iff : ∀ t : Fin cfg0.N, k0_cond1 (grid0.coords t) = 1#1 ↔ t.val < 50 :=
  (by decide +kernel : ∀ t : Fin grid0.N, k0_cond1 (grid0.coords t) = 1#1 ↔ t.val < 50)
/-- … and the last fifty phase 1. -/
theorem phase1_iff : ∀ t : Fin cfg0.N, k0_cond2 (grid0.coords t) = 1#1 ↔ 50 ≤ t.val :=
  (by decide +kernel : ∀ t : Fin grid0.N, k0_cond2 (grid0.coords t) = 1#1 ↔ 50 ≤ t.val)
/-- In phase 0, point t's slab of the scratch starts at row 200·t and column 0. -/
theorem slab_off : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)
/-- No phase-0 point writes an output tile back: both output block indices stay at 0 until the first phase-1 point has run. -/
theorem noflush4 : ∀ t : Fin cfg0.N, t.val < 50 → (cfg0.win 4).flush t = false :=
  (by decide +kernel : ∀ t : Fin grid0.N, t.val < 50 → win0_4.flush t = false)
theorem noflush5 : ∀ t : Fin cfg0.N, t.val < 50 → (cfg0.win 5).flush t = false :=
  (by decide +kernel : ∀ t : Fin grid0.N, t.val < 50 → win0_5.flush t = false)

/-! ## The body's accesses -/

abbrev wx : Rect S200x512 := Rect.unit (s := S200x512) ![0, 0] S200x512.size inb_S200x512_S200x512_0_0
abbrev wa : Rect S200x10000 := Rect.unit (s := S200x10000) ![0, 0] S200x10000.size inb_S200x10000_S200x10000_0_0
abbrev ww : Rect S512x512 := Rect.unit (s := S512x512) ![0, 0] S512x512.size inb_S512x512_S512x512_0_0
abbrev wscr : Rect S10000x512 := Rect.unit (s := S10000x512) ![0, 0] S10000x512.size inb_S10000x512_S10000x512_0_0
/-- The 200 rows of the scratch a phase-0 point stores. -/
abbrev slab (i : grid0.Coords) (h : k0_cond1 i = 1#1) : Rect S10000x512 :=
  Rect.unit (s := S10000x512) (k0_off1 i) S200x512.size (k0_off1_inb i h)

/-- The first output's tile after a phase-1 point: the adjacency tile, stored whole. -/
def abfTile (x1 : Vec F S200x10000 .f32) : Vec F S200x10000 .bf16 :=
  View.canon [⟨wa, k0_pay2 (View.ld x1 wa)⟩]
/-- The second output's tile after a phase-1 point, from the adjacency tile, the scratch and W2. -/
def hw2Tile (x1 : Vec F S200x10000 .f32) (s : Vec F S10000x512 .bf16) (x3 : Vec F S512x512 .bf16) : Vec F S200x512 .bf16 :=
  View.canon [⟨wx, k0_pay3 (View.ld x1 wa) (View.ld s wscr) (View.ld x3 ww)⟩]

theorem abfTile_cover (p0 : Vec F S200x10000 .bf16) (y : S200x10000.Idx) :
    ∃ pc ∈ ([⟨wa, p0⟩] : List (View.Piece (Elt F) S200x10000 .bf16)), y ∈ pc.1.set :=
  View.cover_of_tiled [⟨wa, p0⟩] S200x10000.size (by rfl) y
theorem hw2Tile_cover (p0 : Vec F S200x512 .bf16) (y : S200x512.Idx) :
    ∃ pc ∈ ([⟨wx, p0⟩] : List (View.Piece (Elt F) S200x512 .bf16)), y ∈ pc.1.set :=
  View.cover_of_tiled [⟨wx, p0⟩] S200x512.size (by rfl) y

/-! ## The body's run, phase by phase -/

set_option maxHeartbeats 2000000 in
/-- Phase 0. The x tile at `x0`, W1 at `x2`, the scratch at `s`: the body runs to its continuation with the two
    inputs as they were and the scratch changed on the point's slab only, which now holds the product. The other
    four memrefs are not touched. -/
theorem phase0_run (c : Dev nD) (E : Set ℕ) (i : grid0.Coords) (h1 : k0_cond1 i = 1#1) (h2 : ¬ k0_cond2 i = 1#1)
    (arg2 : Memref sig .tc .vmem S200x512 .f32) (harg2 : arg2.IsWhole) (arg3 : Memref sig .tc .vmem S200x10000 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S200x10000 .bf16) (harg6 : arg6.IsWhole) (arg7 : Memref sig .tc .vmem S200x512 .bf16) (harg7 : arg7.IsWhole)
    (arg8 : Memref sig .tc .vmem S10000x512 .bf16) (harg8 : arg8.IsWhole)
    (x0 : Vec F S200x512 .f32) (x2 : Vec F S512x512 .bf16) (s : Vec F S10000x512 .bf16) (K : PUnit → sProp 𝕄) :
    iprop(owns (c : Thread nD τ) arg2 fullShare x0 ∗ owns (c : Thread nD τ) arg4 fullShare x2 ∗ owns (c : Thread nD τ) arg8 fullShare s
        ∗ (iprop(owns (c : Thread nD τ) arg2 fullShare x0 ∗ owns (c : Thread nD τ) arg4 fullShare x2
            ∗ (∃ s' : Vec F S10000x512 .bf16, ⌜(∀ x, s' ((slab i h1).emb x) = k0_pay1 (View.ld x0 wx) (View.ld x2 ww) x)
                  ∧ (∀ y, y ∉ (slab i h1).set → s' y = s y)⌝ ∗ owns (c : Thread nD τ) arg8 fullShare s')) -∗ K ⟨⟩))
      ⊢ wp frame (wpE (defs₀ (F := F)) Variants.none c none) E
          (cc0__pass1_kernel i arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f2, %hf2, H2⟩, ⟨%f8, %hf8, H8⟩, Hk⟩
  subst hf0; subst hf2; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  iexists _; isplitr
  swap
  · iexists _; isplitr
    swap; · iexact H8
    ipureintro; rfl
  ipureintro
  exact ⟨fun x => View.read_writes_cons_emb _ _ _ _ [] x,
    fun y hy => View.read_writes_apply_of_forall_not_mem _ _ y _ (fun p hp => by rw [List.mem_singleton.mp hp]; exact hy)⟩

set_option maxHeartbeats 2000000 in
/-- Phase 1. The adjacency tile at `x1`, W2 at `x3`, the scratch at `s`, the two output tiles at anything: the body
    runs to its continuation with the inputs and the scratch as they were, the first output at the tile and the second
    at `hw2Tile`. The x tile and W1 are not touched. -/
theorem phase1_run (c : Dev nD) (E : Set ℕ) (i : grid0.Coords) (h1 : ¬ k0_cond1 i = 1#1) (h2 : k0_cond2 i = 1#1)
    (arg2 : Memref sig .tc .vmem S200x512 .f32) (harg2 : arg2.IsWhole) (arg3 : Memref sig .tc .vmem S200x10000 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S200x10000 .bf16) (harg6 : arg6.IsWhole) (arg7 : Memref sig .tc .vmem S200x512 .bf16) (harg7 : arg7.IsWhole)
    (arg8 : Memref sig .tc .vmem S10000x512 .bf16) (harg8 : arg8.IsWhole)
    (x1 : Vec F S200x10000 .f32) (x3 : Vec F S512x512 .bf16) (s : Vec F S10000x512 .bf16) (K : PUnit → sProp 𝕄) :
    iprop(owns (c : Thread nD τ) arg3 fullShare x1 ∗ owns (c : Thread nD τ) arg5 fullShare x3 ∗ owns (c : Thread nD τ) arg8 fullShare s
        ∗ (∃ d, owns (c : Thread nD τ) arg6 fullShare d) ∗ (∃ d, owns (c : Thread nD τ) arg7 fullShare d)
        ∗ (iprop(owns (c : Thread nD τ) arg3 fullShare x1 ∗ owns (c : Thread nD τ) arg5 fullShare x3 ∗ owns (c : Thread nD τ) arg8 fullShare s
            ∗ owns (c : Thread nD τ) arg6 fullShare (abfTile x1) ∗ owns (c : Thread nD τ) arg7 fullShare (hw2Tile x1 s x3)) -∗ K ⟨⟩))
      ⊢ wp frame (wpE (defs₀ (F := F)) Variants.none c none) E
          (cc0__pass1_kernel i arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f3, %hf3, H3⟩, ⟨%f8, %hf8, H8⟩, ⟨%d6, %f6, -, H6⟩, ⟨%d7, %f7, -, H7⟩, Hk⟩
  subst hf1; subst hf3; subst hf8
  sl_exec (disch := first | exact h1 | exact h2)
  sl_step
  iapply Hk
  isplitl [H1]
  · iexists f1; isplitr; · ipureintro; rfl
    iexact H1
  isplitl [H3]
  · iexists f3; isplitr; · ipureintro; rfl
    iexact H3
  isplitl [H8]
  · iexists f8; isplitr; · ipureintro; rfl
    iexact H8
  isplitl [H6]
  · iexists _; isplitr
    swap; · iexact H6
    ipureintro
    exact View.read_writes_eq_canon _ _ _ (abfTile_cover _)
  iexists _; isplitr
  swap; · iexact H7
  ipureintro
  exact View.read_writes_eq_canon _ _ _ (hw2Tile_cover _)

/-! ## The tiles, and the scratch's contents as a function of x and W1 -/

-- the TensorCore's buffer contents when the region is entered
variable (V : (c : Dev nD) → (b : Ref sig .tc) → Buf (Elt F) ((c : Thread nD τ).loc b))

/-- Window `w`'s tile at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input's staging buffer holds the point's tile, fetched at the point or not. -/
theorem found0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem found3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- The phase-0 point that owns row `y 0` of the scratch: row / 200. -/
def owner (y : S10000x512.Idx) : Fin cfg0.N :=
  ⟨(y 0).val / 200, by have := ValueIdx.idx2_lt0 y; rw [show cfg0.N = 100 from N_0]; omega⟩
/-- The row's place inside that point's slab. -/
def inSlab (y : S10000x512.Idx) : S200x512.Idx :=
  ValueIdx.ix2 (⟨(y 0).val % 200, Nat.mod_lt _ (by decide)⟩ : Fin 200) (⟨(y 1).val, ValueIdx.idx2_lt1 y⟩ : Fin 512)

/-- What one phase-0 point stores: its x tile times W1ᵀ. -/
def slabOf (c : Dev nD) (t : Fin cfg0.N) : Vec F S200x512 .bf16 :=
  k0_pay1 (View.ld (tile V c 0 t) wx) (View.ld (tile V c 2 t) ww)

/-- x·W1ᵀ, row by row as the owning phase-0 point computes it: what the scratch holds once phase 0 is over. -/
def xw1 (c : Dev nD) : Vec F S10000x512 .bf16 := fun y => slabOf V c (owner y) (inSlab y)

/-- Before point `n` the scratch holds x·W1ᵀ on the rows the earlier phase-0 points stored: rows below 200·min(n, 50). -/
def Filled (c : Dev nD) (n : ℕ) (s : Vec F S10000x512 .bf16) : Prop :=
  ∀ y : S10000x512.Idx, (y 0).val < 200 * min n 50 → s y = xw1 V c y

theorem filled_zero (c : Dev nD) (s : Vec F S10000x512 .bf16) : Filled V c 0 s := fun y h => by
  simp only [Nat.zero_min, Nat.mul_zero] at h; exact absurd h (Nat.not_lt_zero _)

/-- From point 50 on the scratch is x·W1ᵀ, and no later point changes it. -/
theorem filled_full (c : Dev nD) (n : ℕ) (hn : 50 ≤ n) (s : Vec F S10000x512 .bf16) (h : Filled V c n s) : s = xw1 V c :=
  funext fun y => h y (by have := ValueIdx.idx2_lt0 y; rw [Nat.min_eq_right hn]; omega)
theorem filled_mono (c : Dev nD) (n : ℕ) (hn : 50 ≤ n) (s : Vec F S10000x512 .bf16) (h : Filled V c n s) : Filled V c (n + 1) s :=
  fun y _ => by rw [filled_full V c n hn s h]

/-- One phase-0 point extends the filled rows by its slab. -/
theorem filled_step (c : Dev nD) (t : Fin cfg0.N) (ht : t.val < 50) (s s' : Vec F S10000x512 .bf16)
    (hs : Filled V c t.val s)
    (hin : ∀ x, s' ((slab (grid0.coords t) ((phase0_iff t).mpr ht)).emb x) = slabOf V c t x)
    (hout : ∀ y, y ∉ (slab (grid0.coords t) ((phase0_iff t).mpr ht)).set → s' y = s y) : Filled V c (t.val + 1) s' := by
  intro y hy
  rw [Nat.min_eq_left (by omega : t.val + 1 ≤ 50)] at hy
  have ho := slab_off t ht
  by_cases hm : y ∈ (slab (grid0.coords t) ((phase0_iff t).mpr ht)).set
  · obtain ⟨x, rfl⟩ := (slab (grid0.coords t) ((phase0_iff t).mpr ht)).exists_idx_of_mem hm
    have hx0 : (x 0).val < 200 := (x 0).isLt
    have e0 : (((slab (grid0.coords t) ((phase0_iff t).mpr ht)).idx x) 0).val = 200 * t.val + (x 0).val := by
      show k0_off1 (grid0.coords t) 0 + 1 * (x 0).val = _
      rw [ho.1]; omega
    have e1 : (((slab (grid0.coords t) ((phase0_iff t).mpr ht)).idx x) 1).val = (x 1).val := by
      show k0_off1 (grid0.coords t) 1 + 1 * (x 1).val = _
      rw [ho.2]; omega
    have eo : owner ((slab (grid0.coords t) ((phase0_iff t).mpr ht)).idx x) = t :=
      Fin.ext (by show (((slab (grid0.coords t) ((phase0_iff t).mpr ht)).idx x) 0).val / 200 = t.val; rw [e0]; omega)
    have ei : (inSlab ((slab (grid0.coords t) ((phase0_iff t).mpr ht)).idx x) : S200x512.Idx) = x := by
      funext a
      match a with
      | ⟨0, _⟩ => exact Fin.ext (by show (((slab (grid0.coords t) ((phase0_iff t).mpr ht)).idx x) 0).val % 200 = (x 0).val; rw [e0]; omega)
      | ⟨1, _⟩ => exact Fin.ext (by show (((slab (grid0.coords t) ((phase0_iff t).mpr ht)).idx x) 1).val = (x 1).val; exact e1)
    have := hin x
    rw [show (slab (grid0.coords t) ((phase0_iff t).mpr ht)).emb x = (slab (grid0.coords t) ((phase0_iff t).mpr ht)).idx x from rfl] at this
    rw [this]
    unfold xw1
    rw [eo, ei]
  · have hlt : (y 0).val < 200 * t.val := by
      by_contra hge
      apply hm
      rw [Rect.mem_set_unit]
      intro a
      have h1 := ValueIdx.idx2_lt1 y
      match a with
      | ⟨0, _⟩ =>
        show k0_off1 (grid0.coords t) 0 ≤ (y 0).val ∧ (y 0).val < k0_off1 (grid0.coords t) 0 + 200
        rw [ho.1]; omega
      | ⟨1, _⟩ =>
        show k0_off1 (grid0.coords t) 1 ≤ (y 1).val ∧ (y 1).val < k0_off1 (grid0.coords t) 1 + 512
        rw [ho.2]; omega
    rw [hout y hm]
    exact hs y (by rw [Nat.min_eq_left (by omega : t.val ≤ 50)]; exact hlt)

/-! ## The region's invariant: the scratch filled so far, the other scoped buffers and the generator register -/

/-- The scoped buffers that are neither a staging buffer of this call nor its scratch: the second call's staging buffers, each at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Before point `n`: the scratch at contents filled up to `n`, the rest untouched. -/
def Inv (c : Dev nD) (n : ℕ) : sProp 𝕄 :=
  iprop((∃ s : Vec F S10000x512 .bf16, ⌜Filled V c n s⌝ ∗ owns (c : Thread nD τ) (Memref.whole cc0_scratch0) fullShare s)
    ∗ otherScoped (F := F) c ∗ ∃ r, prngReg c r)

/-! ## The pipeline's proof data -/

/-- The arrays as the region finds them; after the body each input's buffer still at its tile; an output's buffer after
    a phase-1 point at the tile that point stores (at a phase-0 point the outputs are idle and this entry is not read);
    the invariant `Inv`; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => abfTile (tile V c 1 t)
    | ⟨5, _⟩ => hw2Tile (tile V c 1 t) (xw1 V c) (tile V c 3 t)
  Φ n := Inv V c n.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) : (dat V c).after 4 t = abfTile (tile V c 1 t) := by dsimp only [dat]
theorem after_5 (c : Dev nD) (t : Fin cfg0.N) : (dat V c).after 5 t = hw2Tile (tile V c 1 t) (xw1 V c) (tile V c 3 t) := by dsimp only [dat]
theorem before_0 (c : Dev nD) (t : Fin cfg0.N) (d) : (dat V c).before 0 t d = tile V c 0 t := found0 V (dat V c) (A_eq V c 0) (after_0 V c) t d
theorem before_1 (c : Dev nD) (t : Fin cfg0.N) (d) : (dat V c).before 1 t d = tile V c 1 t := found1 V (dat V c) (A_eq V c 1) (after_1 V c) t d
theorem before_2 (c : Dev nD) (t : Fin cfg0.N) (d) : (dat V c).before 2 t d = tile V c 2 t := found2 V (dat V c) (A_eq V c 2) (after_2 V c) t d
theorem before_3 (c : Dev nD) (t : Fin cfg0.N) (d) : (dat V c).before 3 t d = tile V c 3 t := found3 V (dat V c) (A_eq V c 3) (after_3 V c) t d

/-! ## Which windows the body stores into, point by point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 50 → cfg0.idle 4 (grid0.coords t) = true := by decide +kernel
theorem idle5 : ∀ t : Fin cfg0.N, t.val < 50 → cfg0.idle 5 (grid0.coords t) = true := by decide +kernel
theorem live4 : ∀ t : Fin cfg0.N, 50 ≤ t.val → cfg0.idle 4 (grid0.coords t) = false := by decide +kernel
theorem live5 : ∀ t : Fin cfg0.N, 50 ≤ t.val → cfg0.idle 5 (grid0.coords t) = false := by decide +kernel

/-! ## The body obligation at a symbolic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_live (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

set_option maxHeartbeats 2000000 in
/-- A phase-0 point extends the scratch's filled rows by its slab and hands the idle outputs back as found; a phase-1
    point finds the scratch full, leaves it so, and stores both output tiles. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = Inv V c (t.val + 1) from rfl,
    show (dat V c).Φ t.castSucc = Inv V c t.val from rfl,
    leaves_live V c 0 t (live0 t), leaves_live V c 1 t (live1 t), leaves_live V c 2 t (live2 t), leaves_live V c 3 t (live3 t),
    after_0, after_1, after_2, after_3]
  unfold Inv
  by_cases ht : t.val < 50
  · -- phase 0
    rw [Dat.leavesExact_idle (dat V c) 4 t (idle4 t ht) (noflush4 t ht), Dat.leavesExact_idle (dat V c) 5 t (idle5 t ht) (noflush5 t ht)]
    iintro ⟨⟨⟨%s, %hs, HS⟩, Hoth, Hg⟩, Ho, ⟨%d0, H0⟩, ⟨%d1, H1⟩, ⟨%d2, H2⟩, ⟨%d3, H3⟩, H4, H5⟩
    iapply (phase0_run c Set.univ (grid0.coords t) ((phase0_iff t).mpr ht) (fun h => by have := (phase1_iff t).mp h; omega)
      _ _ _ _ _ _ _ _ _ _ _ _ _ _ (tile V c 0 t) (tile V c 2 t) s _)
    isplitl [H0]; · iexact H0
    isplitl [H2]; · iexact H2
    isplitl [HS]; · iexact HS
    iintro ⟨H0, H2, ⟨%s', %hs', HS⟩⟩
    isplitl [HS Hoth Hg]
    · isplitl [HS]
      · iexists s'; isplitr
        · ipureintro; exact filled_step V c t ht s s' hs hs'.1 hs'.2
        iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · -- phase 1
    have ht' : 50 ≤ t.val := Nat.le_of_not_lt ht
    rw [leaves_live V c 4 t (live4 t ht'), leaves_live V c 5 t (live5 t ht'), after_4, after_5]
    iintro ⟨⟨⟨%s, %hs, HS⟩, Hoth, Hg⟩, Ho, ⟨%d0, H0⟩, ⟨%d1, H1⟩, ⟨%d2, H2⟩, ⟨%d3, H3⟩, ⟨%d4, H4⟩, ⟨%d5, H5⟩⟩
    have hfull : s = xw1 V c := filled_full V c t.val ht' s hs
    subst hfull
    iapply (phase1_run c Set.univ (grid0.coords t) (fun h => by have := (phase0_iff t).mp h; omega) ((phase1_iff t).mpr ht')
      _ _ _ _ _ _ _ _ _ _ _ _ _ _ (tile V c 1 t) (tile V c 3 t) (xw1 V c) _)
    isplitl [H1]; · iexact H1
    isplitl [H3]; · iexact H3
    isplitl [HS]; · iexact HS
    isplitl [H4]; · iexists _; iexact H4
    isplitl [H5]; · iexists _; iexact H5
    iintro ⟨H1, H3, HS, H4, H5⟩
    isplitl [HS Hoth Hg]
    · isplitl [HS]
      · iexists (xw1 V c); isplitr
        · ipureintro; exact filled_mono V c t.val ht' _ hs
        iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dat (F := F) V c) (defs₀ (F := F)) Variants.none () Set.univ := fun t => by
  rw [bigSep_W0, bigSep_W0]
  exact sound_body V c t

end Cert.KernelIdeal.Pass1

end
-- ==== Proof.Pass2Body.lean ====
/-
  The second pallas_call of the kernel: ten grid points, point t owning rows 1000·t … 1000·t + 999. Its body
  multiplies the point's 1000×10000 tile of the first operand by the whole 10000×512 second operand and stores,
  row by row, z − max z − log Σ exp (z − max z) of the product z into the point's 1000×512 output tile.
  Stated here at any float instance: each window's tile as the region finds it, what the body leaves in the
  output tile as a function of the two input tiles, the pipeline's proof data, and the body's run at a
  symbolic grid point.
-/
import proofs.«146001_g69913477644666_cont_9to1_m_1327_16_alg».proof.Proof.Gen.KernelIdeal.Launch
import proofs.«146001_g69913477644666_cont_9to1_m_1327_16_alg».proof.Proof.Gen.KernelIdeal.Skeleton
import proofs.«146001_g69913477644666_cont_9to1_m_1327_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at point `t`: the rows of its array that the point owns (for the second operand, all of them). -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds the point's tile whether or not the point fetched it: a point that does
    not fetch has the block index of the point before. -/
theorem found0 {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the second operand, fetched once: its one block is the whole array at every point. -/
theorem found1 {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## What the body reads and writes: three whole staging buffers -/

abbrev whole0 : Rect S1000x10000 := Rect.unit (s := S1000x10000) ![0, 0] S1000x10000.size inb_S1000x10000_S1000x10000_0_0
abbrev whole1 : Rect S10000x512 := Rect.unit (s := S10000x512) ![0, 0] S10000x512.size inb_S10000x512_S10000x512_0_0
abbrev whole2 : Rect S1000x512 := Rect.unit (s := S1000x512) ![0, 0] S1000x512.size inb_S1000x512_S1000x512_0_0

/-- The output tile after the body: its one store, of the row-wise log-softmax of the product of the two input tiles. -/
def outTile (x0 : Vec F S1000x10000 .bf16) (x1 : Vec F S10000x512 .bf16) : Vec F S1000x512 .f32 :=
  View.canon [⟨whole2, k1_pay1 (View.ld x0 whole0) (View.ld x1 whole1)⟩]

/-- That store covers the tile. -/
theorem outTile_cover (p0 : Vec F S1000x512 .f32) (y : S1000x512.Idx) :
    ∃ pc ∈ ([⟨whole2, p0⟩] : List (View.Piece (Elt F) S1000x512 .f32)), y ∈ pc.1.set :=
  View.cover_of_tiled [⟨whole2, p0⟩] S1000x512.size (by rfl) y

/-! ## The body's run -/

set_option maxHeartbeats 1000000 in
/-- On whole staging memrefs, the inputs' at read contents `x0`, `x1` and the output's at anything, the body runs to
    its continuation with the inputs' as they were and the output's at `outTile x0 x1`. -/
theorem body_run (c : Dev nD) (E : Set ℕ) (i : grid1.Coords)
    (arg1 : Memref sig .tc .vmem S1000x10000 .bf16) (harg1 : arg1.IsWhole)
    (arg2 : Memref sig .tc .vmem S10000x512 .bf16) (harg2 : arg2.IsWhole)
    (arg3 : Memref sig .tc .vmem S1000x512 .f32) (harg3 : arg3.IsWhole)
    (x0 : Vec F S1000x10000 .bf16) (x1 : Vec F S10000x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outTile x0 x1)) -∗ K ⟨⟩))
      ⊢ wp frame (wpE (defs₀ (F := F)) Variants.none c none) E (cc1__pass2_kernel i arg1 harg1 arg2 harg2 arg3 harg3) K := by
  simp only [cc1__pass2_kernel_eq_skeleton]; unfold cc1__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

/-! ## The pipeline's proof data -/

/-- The arrays as the region finds them; after the body at point `t` each input's buffer still at its tile and the
    output's at `outTile` of the two; the invariant the scoped buffers no window stages and the generator register,
    untouched; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => outTile (tile V c 0 t) (tile V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = outTile (tile V c 0 t) (tile V c 1 t) := by dsimp only [dat]

theorem before_0 (c : Dev nD) (t : Fin cfg1.N) (d) : (dat V c).before 0 t d = tile V c 0 t :=
  found0 V (dat V c) (A_eq V c 0) (after_0 V c) t d
theorem before_1 (c : Dev nD) (t : Fin cfg1.N) (d) : (dat V c).before 1 t d = tile V c 1 t :=
  found1 V (dat V c) (A_eq V c 1) (after_1 V c) t d

/-! ## The body obligation at a symbolic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The inputs' memrefs hold their tiles, so `body_run` applies; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.KernelIdeal.Pass2

end
-- ==== Proof.MainRun.lean ====
/-
  The whole kernel program: two host casts of the weights, the first pallas_call, the second pallas_call.
  The contents of the TensorCore's unscoped buffers are followed from the launch through the three items: after the
  casts, after the first call (its two output arrays at what its write-backs leave), after the second (its output
  array likewise). Every weakly fair execution terminates with every unscoped buffer at the last of these, stated at
  any float instance; the frame claim is the special case of the four argument buffers, which no item writes.
-/
import proofs.«146001_g69913477644666_cont_9to1_m_1327_16_alg».proof.Proof.Pass1Body
import proofs.«146001_g69913477644666_cont_9to1_m_1327_16_alg».proof.Proof.Pass2Body
import proofs.«146001_g69913477644666_cont_9to1_m_1327_16_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the two casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as before. -/
def W2 (c : Dev nD) : Valuation τ sig (Elt F) :=
  Pipeline.withArrays spec0 c (W1 m c) fun w => (Pass1.dat (V1 m) c).arrAt w cfg0.N
theorem W2_arr (c : Dev nD) (w : Fin cfg0.W) :
    W2 m c (Proc.devRef .tc (Pipeline.arrRef spec0 w)) = (Pass1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pass1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (Pass2.dat (V2 m) c).arrAt w cfg1.N
theorem W3_arr (c : Dev nD) (w : Fin cfg1.W) :
    W3 m c (Proc.devRef .tc (Pipeline.arrRef spec1 w)) = (Pass2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Pass2.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- x: the first call's first input window, no window of the second call, written by neither cast. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Pass1.dat (V1 m) c).arrAt_in 0 rfl _).trans (Pass1.A_eq (V1 m) c 0))
    _ = m ((c : Thread nD τ).loc main_arg0) := Gen.V1_of m c main_arg0 (by decide)
/-- The adjacency matrix: the first call's second input window. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((Pass1.dat (V1 m) c).arrAt_in 1 rfl _).trans (Pass1.A_eq (V1 m) c 1))
    _ = m ((c : Thread nD τ).loc main_arg1) := Gen.V1_of m c main_arg1 (by decide)
/-- W1 and W2 themselves: read by the casts only, windows of neither call. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-! ## The proof data of both calls and the state between items -/

abbrev adm' : (p : Fin 2) → (pcfgs (F := F) p).Adm := fun p => (cfgs p).toPCfg_adm
/-- Each call's proof data at the contents its region is entered from: a literal match on the call's number. -/
def pdats : (p : Fin 2) → (c : Dev nD) → Dat τ (Elt F) Unit ℕ (UR sig nD τ) ℕ (Pipeline.pin (pcfgs (F := F)) adm' p) c
  | ⟨0, _⟩ => fun c => Pass1.dat (V1 m) c
  | ⟨1, _⟩ => fun c => Pass2.dat (V2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The first call: entered with every unscoped buffer at `W1`, left with them at `W2`. Its arrays are split out of the
    unscoped buffers and put back at the exit contents; its scratch leaves the scoped rest at anything, is filled, and
    returns to the scoped rest with its contents forgotten; the generator register rides in the invariant. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pass1.Inv (V1 m) c 0 from rfl, show (Pipeline.scopedRest (Pipeline.pin (pcfgs (F := F)) adm' 0).spec c : sProp 𝕄) = Pipeline.scopedRest spec0 c from rfl, scopedRest0_eq]
    unfold Pass1.Inv Pass1.otherScoped
    simp only [owns_whole]
    iintro ⟨Hp, -, ⟨%f, Hs⟩, Hoth⟩
    isplitl [Hs]
    · iexists f; isplitr; · ipureintro; exact Pass1.filled_zero (V1 m) c f
      iexact Hs
    isplitl [Hoth]; · iexact Hoth
    iexact Hp
  hout c := by
    rw [Pipeline.ownSems0_none, show (pdats m 0 c).Φ (Fin.last _) = Pass1.Inv (V1 m) c (Fin.last cfg0.N).val from rfl, show (Pipeline.scopedRest (Pipeline.pin (pcfgs (F := F)) adm' 0).spec c : sProp 𝕄) = Pipeline.scopedRest spec0 c from rfl, scopedRest0_eq]
    unfold Pass1.Inv Pass1.otherScoped
    simp only [owns_whole]
    iintro ⟨⟨%s, -, Hs⟩, Hoth, Hp⟩
    isplitl [Hp]; · iexact Hp
    isplitr; · iempintro
    isplitl [Hs]; · iexists s; iexact Hs
    iexact Hoth
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered at `W2`, left at `W3`; its invariant is the scoped rest and the generator register, untouched. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm' (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and every
    unscoped buffer of every core ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the four argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Whole

end
-- ==== Proof.KPass1Body.lean ====
/-
  The first pallas_call of the kernel, on its grid of 2 × 50 points, point t = 50·p + i.
  Phase p = 0: point i multiplies rows 200·i … 200·i + 199 of x by W1ᵀ and stores the 200×512 product into
  those rows of a 10000×512 scratch buffer that lives through the whole call.
  Phase p = 1: point i copies its 200×10000 tile of the adjacency matrix to the first output, multiplies the tile by
  the whole scratch, clamps at zero, multiplies by W2ᵀ, and stores the 200×512 result into the second output's tile.
  This module: which points are in which phase, where the phase-0 slab sits, and the body's run in each phase, at
  any float instance.
-/
import proofs.«146001_g69913477644666_cont_9to1_m_1327_16_alg».proof.Proof.Gen.Kernel.Launch
import proofs.«146001_g69913477644666_cont_9to1_m_1327_16_alg».proof.Proof.Gen.Kernel.Skeleton
import proofs.«146001_g69913477644666_cont_9to1_m_1327_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: two phases of fifty points -/

/-- The first fifty points are phase 0 … -/
theorem phase0_iff : ∀ t : Fin cfg0.N, k0_cond1 (grid0.coords t) = 1#1 ↔ t.val < 50 :=
  (by decide +kernel : ∀ t : Fin grid0.N, k0_cond1 (grid0.coords t) = 1#1 ↔ t.val < 50)
/-- … and the last fifty phase 1. -/
theorem phase1_iff : ∀ t : Fin cfg0.N, k0_cond2 (grid0.coords t) = 1#1 ↔ 50 ≤ t.val :=
  (by decide +kernel : ∀ t : Fin grid0.N, k0_cond2 (grid0.coords t) = 1#1 ↔ 50 ≤ t.val)
/-- In phase 0, point t's slab of the scratch starts at row 200·t and column 0. -/
theorem slab_off : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)
/-- No phase-0 point writes an output tile back: both output block indices stay at 0 until the first phase-1 point has run. -/
theorem noflush4 : ∀ t : Fin cfg0.N, t.val < 50 → (cfg0.win 4).flush t = false :=
  (by decide +kernel : ∀ t : Fin grid0.N, t.val < 50 → win0_4.flush t = false)
theorem noflush5 : ∀ t : Fin cfg0.N, t.val < 50 → (cfg0.win 5).flush t = false :=
  (by decide +kernel : ∀ t : Fin grid0.N, t.val < 50 → win0_5.flush t = false)

/-! ## The body's accesses -/

abbrev wx : Rect S200x512 := Rect.unit (s := S200x512) ![0, 0] S200x512.size inb_S200x512_S200x512_0_0
abbrev wa : Rect S200x10000 := Rect.unit (s := S200x10000) ![0, 0] S200x10000.size inb_S200x10000_S200x10000_0_0
abbrev ww : Rect S512x512 := Rect.unit (s := S512x512) ![0, 0] S512x512.size inb_S512x512_S512x512_0_0
abbrev wscr : Rect S10000x512 := Rect.unit (s := S10000x512) ![0, 0] S10000x512.size inb_S10000x512_S10000x512_0_0
/-- The 200 rows of the scratch a phase-0 point stores. -/
abbrev slab (i : grid0.Coords) (h : k0_cond1 i = 1#1) : Rect S10000x512 :=
  Rect.unit (s := S10000x512) (k0_off1 i) S200x512.size (k0_off1_inb i h)

/-- The first output's tile after a phase-1 point: the adjacency tile, stored whole. -/
def abfTile (x1 : Vec F S200x10000 .f32) : Vec F S200x10000 .bf16 :=
  View.canon [⟨wa, k0_pay2 (View.ld x1 wa)⟩]
/-- The second output's tile after a phase-1 point, from the adjacency tile, the scratch and W2. -/
def hw2Tile (x1 : Vec F S200x10000 .f32) (s : Vec F S10000x512 .bf16) (x3 : Vec F S512x512 .bf16) : Vec F S200x512 .bf16 :=
  View.canon [⟨wx, k0_pay3 (View.ld x1 wa) (View.ld s wscr) (View.ld x3 ww)⟩]

theorem abfTile_cover (p0 : Vec F S200x10000 .bf16) (y : S200x10000.Idx) :
    ∃ pc ∈ ([⟨wa, p0⟩] : List (View.Piece (Elt F) S200x10000 .bf16)), y ∈ pc.1.set :=
  View.cover_of_tiled [⟨wa, p0⟩] S200x10000.size (by rfl) y
theorem hw2Tile_cover (p0 : Vec F S200x512 .bf16) (y : S200x512.Idx) :
    ∃ pc ∈ ([⟨wx, p0⟩] : List (View.Piece (Elt F) S200x512 .bf16)), y ∈ pc.1.set :=
  View.cover_of_tiled [⟨wx, p0⟩] S200x512.size (by rfl) y

/-! ## The body's run, phase by phase -/

set_option maxHeartbeats 2000000 in
/-- Phase 0. The x tile at `x0`, W1 at `x2`, the scratch at `s`: the body runs to its continuation with the two
    inputs as they were and the scratch changed on the point's slab only, which now holds the product. The other
    four memrefs are not touched. -/
theorem phase0_run (c : Dev nD) (E : Set ℕ) (i : grid0.Coords) (h1 : k0_cond1 i = 1#1) (h2 : ¬ k0_cond2 i = 1#1)
    (arg2 : Memref sig .tc .vmem S200x512 .f32) (harg2 : arg2.IsWhole) (arg3 : Memref sig .tc .vmem S200x10000 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S200x10000 .bf16) (harg6 : arg6.IsWhole) (arg7 : Memref sig .tc .vmem S200x512 .bf16) (harg7 : arg7.IsWhole)
    (arg8 : Memref sig .tc .vmem S10000x512 .bf16) (harg8 : arg8.IsWhole)
    (x0 : Vec F S200x512 .f32) (x2 : Vec F S512x512 .bf16) (s : Vec F S10000x512 .bf16) (K : PUnit → sProp 𝕄) :
    iprop(owns (c : Thread nD τ) arg2 fullShare x0 ∗ owns (c : Thread nD τ) arg4 fullShare x2 ∗ owns (c : Thread nD τ) arg8 fullShare s
        ∗ (iprop(owns (c : Thread nD τ) arg2 fullShare x0 ∗ owns (c : Thread nD τ) arg4 fullShare x2
            ∗ (∃ s' : Vec F S10000x512 .bf16, ⌜(∀ x, s' ((slab i h1).emb x) = k0_pay1 (View.ld x0 wx) (View.ld x2 ww) x)
                  ∧ (∀ y, y ∉ (slab i h1).set → s' y = s y)⌝ ∗ owns (c : Thread nD τ) arg8 fullShare s')) -∗ K ⟨⟩))
      ⊢ wp frame (wpE (defs₀ (F := F)) Variants.none c none) E
          (cc0__pass1_kernel i arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f2, %hf2, H2⟩, ⟨%f8, %hf8, H8⟩, Hk⟩
  subst hf0; subst hf2; subst hf8
  sl_exec (disch := first | exact h1 | exact h2)
  sl_step
  iapply Hk
  isplitl [H0]
  · iexists f0; isplitr; · ipureintro; rfl
    iexact H0
  isplitl [H2]
  · iexists f2; isplitr; · ipureintro; rfl
    iexact H2
  iexists _; isplitr
  swap
  · iexists _; isplitr
    swap; · iexact H8
    ipureintro; rfl
  ipureintro
  exact ⟨fun x => View.read_writes_cons_emb _ _ _ _ [] x,
    fun y hy => View.read_writes_apply_of_forall_not_mem _ _ y _ (fun p hp => by rw [List.mem_singleton.mp hp]; exact hy)⟩

set_option maxHeartbeats 2000000 in
/-- Phase 1. The adjacency tile at `x1`, W2 at `x3`, the scratch at `s`, the two output tiles at anything: the body
    runs to its continuation with the inputs and the scratch as they were, the first output at the tile and the second
    at `hw2Tile`. The x tile and W1 are not touched. -/
theorem phase1_run (c : Dev nD) (E : Set ℕ) (i : grid0.Coords) (h1 : ¬ k0_cond1 i = 1#1) (h2 : k0_cond2 i = 1#1)
    (arg2 : Memref sig .tc .vmem S200x512 .f32) (harg2 : arg2.IsWhole) (arg3 : Memref sig .tc .vmem S200x10000 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S200x10000 .bf16) (harg6 : arg6.IsWhole) (arg7 : Memref sig .tc .vmem S200x512 .bf16) (harg7 : arg7.IsWhole)
    (arg8 : Memref sig .tc .vmem S10000x512 .bf16) (harg8 : arg8.IsWhole)
    (x1 : Vec F S200x10000 .f32) (x3 : Vec F S512x512 .bf16) (s : Vec F S10000x512 .bf16) (K : PUnit → sProp 𝕄) :
    iprop(owns (c : Thread nD τ) arg3 fullShare x1 ∗ owns (c : Thread nD τ) arg5 fullShare x3 ∗ owns (c : Thread nD τ) arg8 fullShare s
        ∗ (∃ d, owns (c : Thread nD τ) arg6 fullShare d) ∗ (∃ d, owns (c : Thread nD τ) arg7 fullShare d)
        ∗ (iprop(owns (c : Thread nD τ) arg3 fullShare x1 ∗ owns (c : Thread nD τ) arg5 fullShare x3 ∗ owns (c : Thread nD τ) arg8 fullShare s
            ∗ owns (c : Thread nD τ) arg6 fullShare (abfTile x1) ∗ owns (c : Thread nD τ) arg7 fullShare (hw2Tile x1 s x3)) -∗ K ⟨⟩))
      ⊢ wp frame (wpE (defs₀ (F := F)) Variants.none c none) E
          (cc0__pass1_kernel i arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f3, %hf3, H3⟩, ⟨%f8, %hf8, H8⟩, ⟨%d6, %f6, -, H6⟩, ⟨%d7, %f7, -, H7⟩, Hk⟩
  subst hf1; subst hf3; subst hf8
  sl_exec (disch := first | exact h1 | exact h2)
  sl_step
  iapply Hk
  isplitl [H1]
  · iexists f1; isplitr; · ipureintro; rfl
    iexact H1
  isplitl [H3]
  · iexists f3; isplitr; · ipureintro; rfl
    iexact H3
  isplitl [H8]
  · iexists f8; isplitr; · ipureintro; rfl
    iexact H8
  isplitl [H6]
  · iexists _; isplitr
    swap; · iexact H6
    ipureintro
    exact View.read_writes_eq_canon _ _ _ (abfTile_cover _)
  iexists _; isplitr
  swap; · iexact H7
  ipureintro
  exact View.read_writes_eq_canon _ _ _ (hw2Tile_cover _)

/-! ## The tiles, and the scratch's contents as a function of x and W1 -/

-- the TensorCore's buffer contents when the region is entered
variable (V : (c : Dev nD) → (b : Ref sig .tc) → Buf (Elt F) ((c : Thread nD τ).loc b))

/-- Window `w`'s tile at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input's staging buffer holds the point's tile, fetched at the point or not. -/
theorem found0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem found3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- The phase-0 point that owns row `y 0` of the scratch: row / 200. -/
def owner (y : S10000x512.Idx) : Fin cfg0.N :=
  ⟨(y 0).val / 200, by have := ValueIdx.idx2_lt0 y; rw [show cfg0.N = 100 from N_0]; omega⟩
/-- The row's place inside that point's slab. -/
def inSlab (y : S10000x512.Idx) : S200x512.Idx :=
  ValueIdx.ix2 (⟨(y 0).val % 200, Nat.mod_lt _ (by decide)⟩ : Fin 200) (⟨(y 1).val, ValueIdx.idx2_lt1 y⟩ : Fin 512)

/-- What one phase-0 point stores: its x tile times W1ᵀ. -/
def slabOf (c : Dev nD) (t : Fin cfg0.N) : Vec F S200x512 .bf16 :=
  k0_pay1 (View.ld (tile V c 0 t) wx) (View.ld (tile V c 2 t) ww)

/-- x·W1ᵀ, row by row as the owning phase-0 point computes it: what the scratch holds once phase 0 is over. -/
def xw1 (c : Dev nD) : Vec F S10000x512 .bf16 := fun y => slabOf V c (owner y) (inSlab y)

/-- Before point `n` the scratch holds x·W1ᵀ on the rows the earlier phase-0 points stored: rows below 200·min(n, 50). -/
def Filled (c : Dev nD) (n : ℕ) (s : Vec F S10000x512 .bf16) : Prop :=
  ∀ y : S10000x512.Idx, (y 0).val < 200 * min n 50 → s y = xw1 V c y

theorem filled_zero (c : Dev nD) (s : Vec F S10000x512 .bf16) : Filled V c 0 s := fun y h => by
  simp only [Nat.zero_min, Nat.mul_zero] at h; exact absurd h (Nat.not_lt_zero _)

/-- From point 50 on the scratch is x·W1ᵀ, and no later point changes it. -/
theorem filled_full (c : Dev nD) (n : ℕ) (hn : 50 ≤ n) (s : Vec F S10000x512 .bf16) (h : Filled V c n s) : s = xw1 V c :=
  funext fun y => h y (by have := ValueIdx.idx2_lt0 y; rw [Nat.min_eq_right hn]; omega)
theorem filled_mono (c : Dev nD) (n : ℕ) (hn : 50 ≤ n) (s : Vec F S10000x512 .bf16) (h : Filled V c n s) : Filled V c (n + 1) s :=
  fun y _ => by rw [filled_full V c n hn s h]

/-- One phase-0 point extends the filled rows by its slab. -/
theorem filled_step (c : Dev nD) (t : Fin cfg0.N) (ht : t.val < 50) (s s' : Vec F S10000x512 .bf16)
    (hs : Filled V c t.val s)
    (hin : ∀ x, s' ((slab (grid0.coords t) ((phase0_iff t).mpr ht)).emb x) = slabOf V c t x)
    (hout : ∀ y, y ∉ (slab (grid0.coords t) ((phase0_iff t).mpr ht)).set → s' y = s y) : Filled V c (t.val + 1) s' := by
  intro y hy
  rw [Nat.min_eq_left (by omega : t.val + 1 ≤ 50)] at hy
  have ho := slab_off t ht
  by_cases hm : y ∈ (slab (grid0.coords t) ((phase0_iff t).mpr ht)).set
  · obtain ⟨x, rfl⟩ := (slab (grid0.coords t) ((phase0_iff t).mpr ht)).exists_idx_of_mem hm
    have hx0 : (x 0).val < 200 := (x 0).isLt
    have e0 : (((slab (grid0.coords t) ((phase0_iff t).mpr ht)).idx x) 0).val = 200 * t.val + (x 0).val := by
      show k0_off1 (grid0.coords t) 0 + 1 * (x 0).val = _
      rw [ho.1]; omega
    have e1 : (((slab (grid0.coords t) ((phase0_iff t).mpr ht)).idx x) 1).val = (x 1).val := by
      show k0_off1 (grid0.coords t) 1 + 1 * (x 1).val = _
      rw [ho.2]; omega
    have eo : owner ((slab (grid0.coords t) ((phase0_iff t).mpr ht)).idx x) = t :=
      Fin.ext (by show (((slab (grid0.coords t) ((phase0_iff t).mpr ht)).idx x) 0).val / 200 = t.val; rw [e0]; omega)
    have ei : (inSlab ((slab (grid0.coords t) ((phase0_iff t).mpr ht)).idx x) : S200x512.Idx) = x := by
      funext a
      match a with
      | ⟨0, _⟩ => exact Fin.ext (by show (((slab (grid0.coords t) ((phase0_iff t).mpr ht)).idx x) 0).val % 200 = (x 0).val; rw [e0]; omega)
      | ⟨1, _⟩ => exact Fin.ext (by show (((slab (grid0.coords t) ((phase0_iff t).mpr ht)).idx x) 1).val = (x 1).val; exact e1)
    have := hin x
    rw [show (slab (grid0.coords t) ((phase0_iff t).mpr ht)).emb x = (slab (grid0.coords t) ((phase0_iff t).mpr ht)).idx x from rfl] at this
    rw [this]
    unfold xw1
    rw [eo, ei]
  · have hlt : (y 0).val < 200 * t.val := by
      by_contra hge
      apply hm
      rw [Rect.mem_set_unit]
      intro a
      have h1 := ValueIdx.idx2_lt1 y
      match a with
      | ⟨0, _⟩ =>
        show k0_off1 (grid0.coords t) 0 ≤ (y 0).val ∧ (y 0).val < k0_off1 (grid0.coords t) 0 + 200
        rw [ho.1]; omega
      | ⟨1, _⟩ =>
        show k0_off1 (grid0.coords t) 1 ≤ (y 1).val ∧ (y 1).val < k0_off1 (grid0.coords t) 1 + 512
        rw [ho.2]; omega
    rw [hout y hm]
    exact hs y (by rw [Nat.min_eq_left (by omega : t.val ≤ 50)]; exact hlt)

/-! ## The region's invariant: the scratch filled so far, the other scoped buffers and the generator register -/

/-- The scoped buffers that are neither a staging buffer of this call nor its scratch: the second call's staging buffers, each at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Before point `n`: the scratch at contents filled up to `n`, the rest untouched. -/
def Inv (c : Dev nD) (n : ℕ) : sProp 𝕄 :=
  iprop((∃ s : Vec F S10000x512 .bf16, ⌜Filled V c n s⌝ ∗ owns (c : Thread nD τ) (Memref.whole cc0_scratch0) fullShare s)
    ∗ otherScoped (F := F) c ∗ ∃ r, prngReg c r)

/-! ## The pipeline's proof data -/

/-- The arrays as the region finds them; after the body each input's buffer still at its tile; an output's buffer after
    a phase-1 point at the tile that point stores (at a phase-0 point the outputs are idle and this entry is not read);
    the invariant `Inv`; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => abfTile (tile V c 1 t)
    | ⟨5, _⟩ => hw2Tile (tile V c 1 t) (xw1 V c) (tile V c 3 t)
  Φ n := Inv V c n.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) : (dat V c).after 4 t = abfTile (tile V c 1 t) := by dsimp only [dat]
theorem after_5 (c : Dev nD) (t : Fin cfg0.N) : (dat V c).after 5 t = hw2Tile (tile V c 1 t) (xw1 V c) (tile V c 3 t) := by dsimp only [dat]
theorem before_0 (c : Dev nD) (t : Fin cfg0.N) (d) : (dat V c).before 0 t d = tile V c 0 t := found0 V (dat V c) (A_eq V c 0) (after_0 V c) t d
theorem before_1 (c : Dev nD) (t : Fin cfg0.N) (d) : (dat V c).before 1 t d = tile V c 1 t := found1 V (dat V c) (A_eq V c 1) (after_1 V c) t d
theorem before_2 (c : Dev nD) (t : Fin cfg0.N) (d) : (dat V c).before 2 t d = tile V c 2 t := found2 V (dat V c) (A_eq V c 2) (after_2 V c) t d
theorem before_3 (c : Dev nD) (t : Fin cfg0.N) (d) : (dat V c).before 3 t d = tile V c 3 t := found3 V (dat V c) (A_eq V c 3) (after_3 V c) t d

/-! ## Which windows the body stores into, point by point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 50 → cfg0.idle 4 (grid0.coords t) = true := by decide +kernel
theorem idle5 : ∀ t : Fin cfg0.N, t.val < 50 → cfg0.idle 5 (grid0.coords t) = true := by decide +kernel
theorem live4 : ∀ t : Fin cfg0.N, 50 ≤ t.val → cfg0.idle 4 (grid0.coords t) = false := by decide +kernel
theorem live5 : ∀ t : Fin cfg0.N, 50 ≤ t.val → cfg0.idle 5 (grid0.coords t) = false := by decide +kernel

/-! ## The body obligation at a symbolic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_live (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

set_option maxHeartbeats 2000000 in
/-- A phase-0 point extends the scratch's filled rows by its slab and hands the idle outputs back as found; a phase-1
    point finds the scratch full, leaves it so, and stores both output tiles. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = Inv V c (t.val + 1) from rfl,
    show (dat V c).Φ t.castSucc = Inv V c t.val from rfl,
    leaves_live V c 0 t (live0 t), leaves_live V c 1 t (live1 t), leaves_live V c 2 t (live2 t), leaves_live V c 3 t (live3 t),
    after_0, after_1, after_2, after_3]
  unfold Inv
  by_cases ht : t.val < 50
  · -- phase 0
    rw [Dat.leavesExact_idle (dat V c) 4 t (idle4 t ht) (noflush4 t ht), Dat.leavesExact_idle (dat V c) 5 t (idle5 t ht) (noflush5 t ht)]
    iintro ⟨⟨⟨%s, %hs, HS⟩, Hoth, Hg⟩, Ho, ⟨%d0, H0⟩, ⟨%d1, H1⟩, ⟨%d2, H2⟩, ⟨%d3, H3⟩, H4, H5⟩
    iapply (phase0_run c Set.univ (grid0.coords t) ((phase0_iff t).mpr ht) (fun h => by have := (phase1_iff t).mp h; omega)
      _ _ _ _ _ _ _ _ _ _ _ _ _ _ (tile V c 0 t) (tile V c 2 t) s _)
    isplitl [H0]; · iexact H0
    isplitl [H2]; · iexact H2
    isplitl [HS]; · iexact HS
    iintro ⟨H0, H2, ⟨%s', %hs', HS⟩⟩
    isplitl [HS Hoth Hg]
    · isplitl [HS]
      · iexists s'; isplitr
        · ipureintro; exact filled_step V c t ht s s' hs hs'.1 hs'.2
        iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · -- phase 1
    have ht' : 50 ≤ t.val := Nat.le_of_not_lt ht
    rw [leaves_live V c 4 t (live4 t ht'), leaves_live V c 5 t (live5 t ht'), after_4, after_5]
    iintro ⟨⟨⟨%s, %hs, HS⟩, Hoth, Hg⟩, Ho, ⟨%d0, H0⟩, ⟨%d1, H1⟩, ⟨%d2, H2⟩, ⟨%d3, H3⟩, ⟨%d4, H4⟩, ⟨%d5, H5⟩⟩
    have hfull : s = xw1 V c := filled_full V c t.val ht' s hs
    subst hfull
    iapply (phase1_run c Set.univ (grid0.coords t) (fun h => by have := (phase0_iff t).mp h; omega) ((phase1_iff t).mpr ht')
      _ _ _ _ _ _ _ _ _ _ _ _ _ _ (tile V c 1 t) (tile V c 3 t) (xw1 V c) _)
    isplitl [H1]; · iexact H1
    isplitl [H3]; · iexact H3
    isplitl [HS]; · iexact HS
    isplitl [H4]; · iexists _; iexact H4
    isplitl [H5]; · iexists _; iexact H5
    iintro ⟨H1, H3, HS, H4, H5⟩
    isplitl [HS Hoth Hg]
    · isplitl [HS]
      · iexists (xw1 V c); isplitr
        · ipureintro; exact filled_mono V c t.val ht' _ hs
        iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dat (F := F) V c) (defs₀ (F := F)) Variants.none () Set.univ := fun t => by
  rw [bigSep_W0, bigSep_W0]
  exact sound_body V c t

end Cert.Kernel.Pass1

end
-- ==== Proof.KPass2Body.lean ====
/-
  The second pallas_call of the kernel: ten grid points, point t owning rows 1000·t … 1000·t + 999. Its body
  multiplies the point's 1000×10000 tile of the first operand by the whole 10000×512 second operand and stores,
  row by row, z − max z − log Σ exp (z − max z) of the product z into the point's 1000×512 output tile.
  Stated here at any float instance: each window's tile as the region finds it, what the body leaves in the
  output tile as a function of the two input tiles, the pipeline's proof data, and the body's run at a
  symbolic grid point.
-/
import proofs.«146001_g69913477644666_cont_9to1_m_1327_16_alg».proof.Proof.Gen.Kernel.Launch
import proofs.«146001_g69913477644666_cont_9to1_m_1327_16_alg».proof.Proof.Gen.Kernel.Skeleton
import proofs.«146001_g69913477644666_cont_9to1_m_1327_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at point `t`: the rows of its array that the point owns (for the second operand, all of them). -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds the point's tile whether or not the point fetched it: a point that does
    not fetch has the block index of the point before. -/
theorem found0 {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the second operand, fetched once: its one block is the whole array at every point. -/
theorem found1 {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## What the body reads and writes: three whole staging buffers -/

abbrev whole0 : Rect S1000x10000 := Rect.unit (s := S1000x10000) ![0, 0] S1000x10000.size inb_S1000x10000_S1000x10000_0_0
abbrev whole1 : Rect S10000x512 := Rect.unit (s := S10000x512) ![0, 0] S10000x512.size inb_S10000x512_S10000x512_0_0
abbrev whole2 : Rect S1000x512 := Rect.unit (s := S1000x512) ![0, 0] S1000x512.size inb_S1000x512_S1000x512_0_0

/-- The output tile after the body: its one store, of the row-wise log-softmax of the product of the two input tiles. -/
def outTile (x0 : Vec F S1000x10000 .bf16) (x1 : Vec F S10000x512 .bf16) : Vec F S1000x512 .f32 :=
  View.canon [⟨whole2, k1_pay1 (View.ld x0 whole0) (View.ld x1 whole1)⟩]

/-- That store covers the tile. -/
theorem outTile_cover (p0 : Vec F S1000x512 .f32) (y : S1000x512.Idx) :
    ∃ pc ∈ ([⟨whole2, p0⟩] : List (View.Piece (Elt F) S1000x512 .f32)), y ∈ pc.1.set :=
  View.cover_of_tiled [⟨whole2, p0⟩] S1000x512.size (by rfl) y

/-! ## The body's run -/

set_option maxHeartbeats 1000000 in
/-- On whole staging memrefs, the inputs' at read contents `x0`, `x1` and the output's at anything, the body runs to
    its continuation with the inputs' as they were and the output's at `outTile x0 x1`. -/
theorem body_run (c : Dev nD) (E : Set ℕ) (i : grid1.Coords)
    (arg1 : Memref sig .tc .vmem S1000x10000 .bf16) (harg1 : arg1.IsWhole)
    (arg2 : Memref sig .tc .vmem S10000x512 .bf16) (harg2 : arg2.IsWhole)
    (arg3 : Memref sig .tc .vmem S1000x512 .f32) (harg3 : arg3.IsWhole)
    (x0 : Vec F S1000x10000 .bf16) (x1 : Vec F S10000x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outTile x0 x1)) -∗ K ⟨⟩))
      ⊢ wp frame (wpE (defs₀ (F := F)) Variants.none c none) E (cc1__pass2_kernel i arg1 harg1 arg2 harg2 arg3 harg3) K := by
  simp only [cc1__pass2_kernel_eq_skeleton]; unfold cc1__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

/-! ## The pipeline's proof data -/

/-- The arrays as the region finds them; after the body at point `t` each input's buffer still at its tile and the
    output's at `outTile` of the two; the invariant the scoped buffers no window stages and the generator register,
    untouched; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => outTile (tile V c 0 t) (tile V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = outTile (tile V c 0 t) (tile V c 1 t) := by dsimp only [dat]

theorem before_0 (c : Dev nD) (t : Fin cfg1.N) (d) : (dat V c).before 0 t d = tile V c 0 t :=
  found0 V (dat V c) (A_eq V c 0) (after_0 V c) t d
theorem before_1 (c : Dev nD) (t : Fin cfg1.N) (d) : (dat V c).before 1 t d = tile V c 1 t :=
  found1 V (dat V c) (A_eq V c 1) (after_1 V c) t d

/-! ## The body obligation at a symbolic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The inputs' memrefs hold their tiles, so `body_run` applies; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.Kernel.Pass2

end
-- ==== Proof.KMainRun.lean ====
/-
  The whole kernel program: two host casts of the weights, the first pallas_call, the second pallas_call.
  The contents of the TensorCore's unscoped buffers are followed from the launch through the three items: after the
  casts, after the first call (its two output arrays at what its write-backs leave), after the second (its output
  array likewise). Every weakly fair execution terminates with every unscoped buffer at the last of these, stated at
  any float instance; the frame claim is the special case of the four argument buffers, which no item writes.
-/
import proofs.«146001_g69913477644666_cont_9to1_m_1327_16_alg».proof.Proof.KPass1Body
import proofs.«146001_g69913477644666_cont_9to1_m_1327_16_alg».proof.Proof.KPass2Body
import proofs.«146001_g69913477644666_cont_9to1_m_1327_16_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the two casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as before. -/
def W2 (c : Dev nD) : Valuation τ sig (Elt F) :=
  Pipeline.withArrays spec0 c (W1 m c) fun w => (Pass1.dat (V1 m) c).arrAt w cfg0.N
theorem W2_arr (c : Dev nD) (w : Fin cfg0.W) :
    W2 m c (Proc.devRef .tc (Pipeline.arrRef spec0 w)) = (Pass1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pass1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (Pass2.dat (V2 m) c).arrAt w cfg1.N
theorem W3_arr (c : Dev nD) (w : Fin cfg1.W) :
    W3 m c (Proc.devRef .tc (Pipeline.arrRef spec1 w)) = (Pass2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Pass2.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- x: the first call's first input window, no window of the second call, written by neither cast. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Pass1.dat (V1 m) c).arrAt_in 0 rfl _).trans (Pass1.A_eq (V1 m) c 0))
    _ = m ((c : Thread nD τ).loc main_arg0) := Gen.V1_of m c main_arg0 (by decide)
/-- The adjacency matrix: the first call's second input window. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((Pass1.dat (V1 m) c).arrAt_in 1 rfl _).trans (Pass1.A_eq (V1 m) c 1))
    _ = m ((c : Thread nD τ).loc main_arg1) := Gen.V1_of m c main_arg1 (by decide)
/-- W1 and W2 themselves: read by the casts only, windows of neither call. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-! ## The proof data of both calls and the state between items -/

abbrev adm' : (p : Fin 2) → (pcfgs (F := F) p).Adm := fun p => (cfgs p).toPCfg_adm
/-- Each call's proof data at the contents its region is entered from: a literal match on the call's number. -/
def pdats : (p : Fin 2) → (c : Dev nD) → Dat τ (Elt F) Unit ℕ (UR sig nD τ) ℕ (Pipeline.pin (pcfgs (F := F)) adm' p) c
  | ⟨0, _⟩ => fun c => Pass1.dat (V1 m) c
  | ⟨1, _⟩ => fun c => Pass2.dat (V2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The first call: entered with every unscoped buffer at `W1`, left with them at `W2`. Its arrays are split out of the
    unscoped buffers and put back at the exit contents; its scratch leaves the scoped rest at anything, is filled, and
    returns to the scoped rest with its contents forgotten; the generator register rides in the invariant. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pass1.Inv (V1 m) c 0 from rfl, show (Pipeline.scopedRest (Pipeline.pin (pcfgs (F := F)) adm' 0).spec c : sProp 𝕄) = Pipeline.scopedRest spec0 c from rfl, scopedRest0_eq]
    unfold Pass1.Inv Pass1.otherScoped
    simp only [owns_whole]
    iintro ⟨Hp, -, ⟨%f, Hs⟩, Hoth⟩
    isplitl [Hs]
    · iexists f; isplitr; · ipureintro; exact Pass1.filled_zero (V1 m) c f
      iexact Hs
    isplitl [Hoth]; · iexact Hoth
    iexact Hp
  hout c := by
    rw [Pipeline.ownSems0_none, show (pdats m 0 c).Φ (Fin.last _) = Pass1.Inv (V1 m) c (Fin.last cfg0.N).val from rfl, show (Pipeline.scopedRest (Pipeline.pin (pcfgs (F := F)) adm' 0).spec c : sProp 𝕄) = Pipeline.scopedRest spec0 c from rfl, scopedRest0_eq]
    unfold Pass1.Inv Pass1.otherScoped
    simp only [owns_whole]
    iintro ⟨⟨%s, -, Hs⟩, Hoth, Hp⟩
    isplitl [Hp]; · iexact Hp
    isplitr; · iempintro
    isplitl [Hs]; · iexists s; iexact Hs
    iexact Hoth
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered at `W2`, left at `W3`; its invariant is the scoped rest and the generator register, untouched. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm' (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and every
    unscoped buffer of every core ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the four argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Whole

end
-- ==== Proof.Spec.lean ====
/-
  The function both programs compute, on the extended reals, index by index.
  With x : 10000×512, A : 10000×10000, W1, W2 : 512×512:
      out = lsm (A · (relu (A · (x · W1ᵀ)) · W2ᵀ)),
  where u · wᵀ at (r, c) is Σ_k u(r, k) · w(c, k), A · h at (r, c) is Σ_j A(r, j) · h(j, c), relu clamps below at the
  value of the zero word, and lsm subtracts from each entry its row's maximum and then the logarithm of the row's sum of
  exponentials of the entries so shifted. Nothing here mentions a program.
-/
import Idealize.ShloMosaic.PureOps.Ideal
import Idealize.ShloMosaic.Lib.ValueIdx

noncomputable section

open scoped BigOperators

namespace Cert.Spec

open Idealize.ShloMosaic Idealize.ShloMosaic.ValueIdx

abbrev Sx : Shape := ⟨2, ![10000, 512]⟩
abbrev Sa : Shape := ⟨2, ![10000, 10000]⟩
abbrev Sw : Shape := ⟨2, ![512, 512]⟩

/-- u · wᵀ: row r of u against row c of w. -/
def mulT (u : Sx.Idx → EReal) (w : Sw.Idx → EReal) : Sx.Idx → EReal :=
  fun i => ∑ k : Fin 512, u (ix2 (i 0) k) * w (ix2 (i 1) k)

/-- A · h: row r of A against column c of h. -/
def agg (a : Sa.Idx → EReal) (h : Sx.Idx → EReal) : Sx.Idx → EReal :=
  fun i => ∑ j : Fin 10000, a (ix2 (i 0) j) * h (ix2 j (i 1))

/-- Clamp below at the value of the zero word. -/
def relu (z : Sx.Idx → EReal) : Sx.Idx → EReal :=
  fun i => max (z i) (Ideal.ofBits .f32 0x00000000#32)

/-- The largest entry of row r, folded from the value of the word of minus infinity. -/
def rowMax (z : Sx.Idx → EReal) (r : Fin 10000) : EReal :=
  (Finset.univ : Finset (Fin 512)).fold max (Ideal.ofBits .f32 0xFF800000#32) (fun o => z (ix2 r o))

/-- Row-wise log-softmax in the shifted form: (z − m) − log Σ exp (z − m), m the row's maximum. -/
def lsm (z : Sx.Idx → EReal) : Sx.Idx → EReal :=
  fun i => (z i - rowMax z (i 0)) - Ideal.log (∑ o : Fin 512, Ideal.exp (z (ix2 (i 0) o) - rowMax z (i 0)))

/-- The whole function of the four arguments. -/
def out (x : Sx.Idx → EReal) (a : Sa.Idx → EReal) (w1 w2 : Sw.Idx → EReal) : Sx.Idx → EReal :=
  lsm (agg a (mulT (relu (agg a (mulT x w1))) w2))

end Cert.Spec

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.Pass1Value.lean ====
/-
  The first pallas_call on the extended reals. The scratch, once phase 0 is over, holds x · W1ᵀ; the first output array
  ends as the adjacency matrix; the second as relu (A · (x · W1ᵀ)) · W2ᵀ. Each is read off the blocks the phase-1
  points write back, which tile the arrays by rows of 200.
-/
import proofs.«146001_g69913477644666_cont_9to1_m_1327_16_alg».proof.Proof.Pass1Body
import proofs.«146001_g69913477644666_cont_9to1_m_1327_16_alg».proof.Proof.Spec
import proofs.«146001_g69913477644666_cont_9to1_m_1327_16_alg».proof.Proof.LibPlainDot
import proofs.«146001_g69913477644666_cont_9to1_m_1327_16_alg».proof.Proof.LibRhsTDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pass1V

open Cert.KernelIdeal Cert.KernelIdeal.Gen
open Idealize.ShloMosaic Idealize.ShloMosaic.TcCoe Idealize.ShloMosaic.ValueIdx
open Idealize.ShloMosaic.Pipeline (Dat)

/-! ## The two payloads as compositions -/

/-- A 200×512 tile against the transpose of a 512×512 matrix. -/
def xwTile (v6 : FVec Ideal S200x512 .f32) (v8 : FVec Ideal S512x512 .bf16) : FVec Ideal S200x512 .bf16 :=
  shapeCast S200x512 (truncf .bf16 (matmul dot_S200x512_S512x512_S200x512_1_1_0_0_n_n none (truncf .bf16 v6 bitsLt_bf16_f32)
    (shapeCast S512x512 v8 shapeCasts_S512x512_S512x512) (constant S200x512 .f32 0x00000000#32)) bitsLt_bf16_f32) shapeCasts_S200x512_S200x512

theorem pay1_eq (v6 : Vec Ideal S200x512 .f32) (v8 : Vec Ideal S512x512 .bf16) : k0_pay1 (F := Ideal) v6 v8 = xwTile v6 v8 := rfl

theorem xwTile_apply (v6 : FVec Ideal S200x512 .f32) (v8 : FVec Ideal S512x512 .bf16) (p : Fin 200) (h : Fin 512) :
    xwTile v6 v8 (ix2 p h) = ∑ k : Fin 512, v6 (ix2 p k) * v8 (ix2 h k) := by
  unfold xwTile
  rw [shapeCast_self, shapeCast_self]
  exact RhsTDot.matmul_zero_apply _ rfl none (truncf .bf16 v6 bitsLt_bf16_f32) v8 (ix2 p h)

/-- An adjacency tile times the scratch, clamped at zero, against the transpose of a 512×512 matrix. -/
def hwTile (v6 : FVec Ideal S200x10000 .f32) (v9 : FVec Ideal S10000x512 .bf16) (v14 : FVec Ideal S512x512 .bf16) : FVec Ideal S200x512 .bf16 :=
  truncf .bf16 (matmul dot_S200x512_S512x512_S200x512_1_1_0_0_n_n none
    (truncf .bf16 (maximumf (matmul dot_S200x10000_S10000x512_S200x512_1_0_0_1_n_n none (truncf .bf16 v6 bitsLt_bf16_f32) v9 (constant S200x512 .f32 0x00000000#32))
        (broadcast S200x512 (Scalar.ofBits .f32 0x00000000#32))) bitsLt_bf16_f32)
    (shapeCast S512x512 v14 shapeCasts_S512x512_S512x512) (constant S200x512 .f32 0x00000000#32)) bitsLt_bf16_f32

theorem pay3_eq (v6 : Vec Ideal S200x10000 .f32) (v9 : Vec Ideal S10000x512 .bf16) (v14 : Vec Ideal S512x512 .bf16) :
    k0_pay3 (F := Ideal) v6 v9 v14 = hwTile v6 v9 v14 := rfl

theorem hwTile_apply (v6 : FVec Ideal S200x10000 .f32) (v9 : FVec Ideal S10000x512 .bf16) (v14 : FVec Ideal S512x512 .bf16) (p : Fin 200) (o : Fin 512) :
    hwTile v6 v9 v14 (ix2 p o)
      = ∑ h : Fin 512, max (∑ j : Fin 10000, v6 (ix2 p j) * v9 (ix2 j h)) (Ideal.ofBits .f32 0x00000000#32) * v14 (ix2 o h) := by
  unfold hwTile
  rw [shapeCast_self]
  refine (RhsTDot.matmul_zero_apply _ rfl none _ v14 (ix2 p o)).trans ?_
  refine Finset.sum_congr rfl fun h _ => ?_
  show max (matmul dot_S200x10000_S10000x512_S200x512_1_0_0_1_n_n none (truncf .bf16 v6 bitsLt_bf16_f32) v9 (constant S200x512 .f32 0x00000000#32) (ix2 p h))
      (Ideal.ofBits .f32 0x00000000#32) * v14 (ix2 o h) = _
  rw [PlainDot.matmul_zero_apply dot_S200x10000_S10000x512_S200x512_1_0_0_1_n_n rfl none (truncf .bf16 v6 bitsLt_bf16_f32) v9 (ix2 p h)]
  rfl

/-! ## The blocks' places -/

variable (V : (c : Dev nD) → (b : Ref sig .tc) → Buf (Elt Ideal) ((c : Thread nD τ).loc b))

theorem hz : (![0, 0] : Fin 2 → Nat) = fun _ => 0 := funext fun a => by fin_cases a <;> rfl

/-- In phase 0 point t reads row block t of x and all of W1; in phase 1 point t reads row block t − 50 of A and all of W2, and
    both output blocks are row block t − 50 and are written back. -/
theorem idx_facts : ∀ t : Fin cfg0.N,
    (t.val < 50 → win0_0.index t (0 : Fin 2) = t.val ∧ win0_0.index t (1 : Fin 2) = 0 ∧ win0_2.index t (0 : Fin 2) = 0 ∧ win0_2.index t (1 : Fin 2) = 0)
    ∧ (50 ≤ t.val → win0_1.index t (0 : Fin 2) = t.val - 50 ∧ win0_1.index t (1 : Fin 2) = 0 ∧ win0_3.index t (0 : Fin 2) = 0 ∧ win0_3.index t (1 : Fin 2) = 0
        ∧ win0_4.index t (0 : Fin 2) = t.val - 50 ∧ win0_4.index t (1 : Fin 2) = 0 ∧ win0_5.index t (0 : Fin 2) = t.val - 50 ∧ win0_5.index t (1 : Fin 2) = 0
        ∧ win0_4.flush t = true ∧ win0_5.flush t = true) :=
  (by decide +kernel : ∀ t : Fin grid0.N, _)

/-! ## The scratch is x · W1ᵀ -/

theorem xw1_eq (c : Dev nD) : Pass1.xw1 V c = Cert.Spec.mulT (V c main_arg0) (V c main_v0) := by
  funext y
  have hy0 : (y 0).val < 10000 := idx2_lt0 y
  have hy1 : (y 1).val < 512 := idx2_lt1 y
  unfold Pass1.xw1 Pass1.slabOf Pass1.inSlab Cert.Spec.mulT
  rw [pay1_eq]
  simp only [View.ld_unit_zero (S := S200x512) hz, View.ld_unit_zero (S := S512x512) hz]
  rw [xwTile_apply]
  have hlt : (Pass1.owner y).val < 50 := by show (y 0).val / 200 < 50; omega
  obtain ⟨e00, e01, e20, e21⟩ := (idx_facts (Pass1.owner y)).1 hlt
  refine Finset.sum_congr rfl fun k _ => ?_
  have h0 : Pass1.tile V c 0 (Pass1.owner y) (ix2 (⟨(y 0).val % 200, Nat.mod_lt _ (by decide)⟩ : Fin 200) k) = V c main_arg0 (ix2 (y 0) k) := by
    show V c main_arg0 (((cfg0.win 0).blk (Pass1.owner y)).view.emb (ix2 (⟨(y 0).val % 200, Nat.mod_lt _ (by decide)⟩ : Fin 200) k)) = _
    refine congrArg (V c main_arg0) ?_
    funext a; apply Fin.ext
    match a with
    | ⟨0, _⟩ =>
      show win0_0.index (Pass1.owner y) (0 : Fin 2) * 200 + 1 * ((y 0).val % 200) = (y 0).val
      rw [e00]; show (y 0).val / 200 * 200 + 1 * ((y 0).val % 200) = (y 0).val; omega
    | ⟨1, _⟩ => show win0_0.index (Pass1.owner y) (1 : Fin 2) * 512 + 1 * k.val = k.val; rw [e01]; omega
  have h2 : Pass1.tile V c 2 (Pass1.owner y) (ix2 (⟨(y 1).val, idx2_lt1 y⟩ : Fin 512) k) = V c main_v0 (ix2 (y 1) k) := by
    show V c main_v0 (((cfg0.win 2).blk (Pass1.owner y)).view.emb (ix2 (⟨(y 1).val, idx2_lt1 y⟩ : Fin 512) k)) = _
    refine congrArg (V c main_v0) ?_
    funext a; apply Fin.ext
    match a with
    | ⟨0, _⟩ => show win0_2.index (Pass1.owner y) (0 : Fin 2) * 512 + 1 * (y 1).val = (y 1).val; rw [e20]; omega
    | ⟨1, _⟩ => show win0_2.index (Pass1.owner y) (1 : Fin 2) * 512 + 1 * k.val = k.val; rw [e21]; omega
  rw [h0, h2]

/-! ## The first output: the adjacency matrix -/

/-- What the first output array ends holding. -/
def G4 (c : Dev nD) : Buf (Elt Ideal) ((c : Thread nD τ).loc main_v2_0) := fun i => V c main_arg1 i

theorem flushed4_eq (c : Dev nD) (t : Fin cfg0.N) (ht : 50 ≤ t.val) :
    (Pass1.dat V c).flushed 4 t = ((cfg0.win 4).blk t).view.read (Elt Ideal) (G4 V c) := by
  show (cfg0.win 4).cut (grid0.coords t) ((Pass1.dat V c).after 4 t) = _
  rw [Pass1.after_4]
  unfold Pass1.abfTile
  rw [View.canon_unit_zero hz]
  simp only [View.ld_unit_zero (S := S200x10000) hz]
  obtain ⟨e10, e11, -, -, e40, e41, -, -, -, -⟩ := (idx_facts t).2 ht
  funext j
  show V c main_arg1 (((cfg0.win 1).blk t).view.emb j) = V c main_arg1 (((cfg0.win 4).blk t).view.emb j)
  refine congrArg (V c main_arg1) ?_
  funext a; apply Fin.ext
  match a with
  | ⟨0, _⟩ => show win0_1.index t (0 : Fin 2) * 200 + 1 * (j 0).val = win0_4.index t (0 : Fin 2) * 200 + 1 * (j 0).val; rw [e10, e40]
  | ⟨1, _⟩ => show win0_1.index t (1 : Fin 2) * 10000 + 1 * (j 1).val = win0_4.index t (1 : Fin 2) * 10000 + 1 * (j 1).val; rw [e11, e41]

theorem mem_blk4 (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v2_0).slice (win0_4.rect t)).set ↔ _
  rw [View.set_slice_whole, Rect.mem_set_unit]
  exact Iff.rfl

theorem cover4 (i : S10000x10000.Idx) : ∃ t : Fin cfg0.N, (cfg0.win 4).flush t = true ∧ i ∈ ((cfg0.win 4).blk t).view.set := by
  have hi0 : (i 0).val < 10000 := idx2_lt0 i
  have hi1 : (i 1).val < 10000 := idx2_lt1 i
  have ht : 50 + (i 0).val / 200 < cfg0.N := by rw [show cfg0.N = 100 from N_0]; omega
  obtain ⟨-, -, -, -, e40, e41, -, -, f4, -⟩ := (idx_facts ⟨50 + (i 0).val / 200, ht⟩).2 (by show 50 ≤ 50 + (i 0).val / 200; omega)
  refine ⟨⟨50 + (i 0).val / 200, ht⟩, f4, ?_⟩
  rw [mem_blk4]
  intro a
  match a with
  | ⟨0, _⟩ =>
    show win0_4.index ⟨50 + (i 0).val / 200, ht⟩ (0 : Fin 2) * 200 ≤ (i 0).val ∧ (i 0).val < win0_4.index ⟨50 + (i 0).val / 200, ht⟩ (0 : Fin 2) * 200 + 200
    rw [e40]; show (50 + (i 0).val / 200 - 50) * 200 ≤ (i 0).val ∧ (i 0).val < (50 + (i 0).val / 200 - 50) * 200 + 200; omega
  | ⟨1, _⟩ =>
    show win0_4.index ⟨50 + (i 0).val / 200, ht⟩ (1 : Fin 2) * 10000 ≤ (i 1).val ∧ (i 1).val < win0_4.index ⟨50 + (i 0).val / 200, ht⟩ (1 : Fin 2) * 10000 + 10000
    rw [e41]; omega

theorem flush4_phase1 (t : Fin cfg0.N) (h : (cfg0.win 4).flush t = true) : 50 ≤ t.val := by
  by_contra hlt
  rw [Pass1.noflush4 t (by omega)] at h
  exact Bool.false_ne_true h

theorem final4 (c : Dev nD) : (Pass1.dat V c).arrAt 4 cfg0.N = G4 V c :=
  (Pass1.dat V c).arrAt_eq_of_cover 4 (G4 V c) (fun t h => flushed4_eq V c t (flush4_phase1 t h)) cover4

/-! ## The second output: relu (A · (x · W1ᵀ)) · W2ᵀ -/

def G5 (c : Dev nD) : Cert.Spec.Sx.Idx → EReal :=
  Cert.Spec.mulT (Cert.Spec.relu (Cert.Spec.agg (V c main_arg1) (Pass1.xw1 V c))) (V c main_v1)

theorem flushed5_eq (c : Dev nD) (t : Fin cfg0.N) (ht : 50 ≤ t.val) :
    (Pass1.dat V c).flushed 5 t = ((cfg0.win 5).blk t).view.read (Elt Ideal) (G5 V c) := by
  show (cfg0.win 5).cut (grid0.coords t) ((Pass1.dat V c).after 5 t) = _
  rw [Pass1.after_5]
  unfold Pass1.hw2Tile
  rw [View.canon_unit_zero hz]
  simp only [View.ld_unit_zero (S := S200x10000) hz, View.ld_unit_zero (S := S10000x512) hz, View.ld_unit_zero (S := S512x512) hz]
  rw [pay3_eq]
  obtain ⟨e10, e11, e30, e31, -, -, e50, e51, -, -⟩ := (idx_facts t).2 ht
  have hN : t.val < 100 := lt_of_lt_of_eq t.isLt (show cfg0.N = 100 from N_0)
  funext j
  obtain ⟨p, o, rfl⟩ : ∃ (p : Fin 200) (o : Fin 512), j = ix2 p o := ⟨j 0, j 1, eq_ix2 j⟩
  have hR : 200 * (t.val - 50) + p.val < 10000 := by have := p.isLt; omega
  have hemb : ((cfg0.win 5).blk t).view.emb (ix2 p o) = ix2 (⟨200 * (t.val - 50) + p.val, hR⟩ : Fin 10000) o := by
    funext a; apply Fin.ext
    match a with
    | ⟨0, _⟩ => show win0_5.index t (0 : Fin 2) * 200 + 1 * p.val = 200 * (t.val - 50) + p.val; rw [e50]; omega
    | ⟨1, _⟩ => show win0_5.index t (1 : Fin 2) * 512 + 1 * o.val = o.val; rw [e51]; omega
  show hwTile (Pass1.tile V c 1 t) (Pass1.xw1 V c) (Pass1.tile V c 3 t) (ix2 p o) = G5 V c (((cfg0.win 5).blk t).view.emb (ix2 p o))
  rw [hemb, hwTile_apply]
  unfold G5 Cert.Spec.mulT Cert.Spec.relu Cert.Spec.agg
  refine Finset.sum_congr rfl fun h _ => ?_
  have h3 : Pass1.tile V c 3 t (ix2 o h) = V c main_v1 (ix2 o h) := by
    show V c main_v1 (((cfg0.win 3).blk t).view.emb (ix2 o h)) = _
    refine congrArg (V c main_v1) ?_
    funext a; apply Fin.ext
    match a with
    | ⟨0, _⟩ => show win0_3.index t (0 : Fin 2) * 512 + 1 * o.val = o.val; rw [e30]; omega
    | ⟨1, _⟩ => show win0_3.index t (1 : Fin 2) * 512 + 1 * h.val = h.val; rw [e31]; omega
  have h1 : ∀ jj : Fin 10000, Pass1.tile V c 1 t (ix2 p jj) = V c main_arg1 (ix2 (⟨200 * (t.val - 50) + p.val, hR⟩ : Fin 10000) jj) := fun jj => by
    show V c main_arg1 (((cfg0.win 1).blk t).view.emb (ix2 p jj)) = _
    refine congrArg (V c main_arg1) ?_
    funext a; apply Fin.ext
    match a with
    | ⟨0, _⟩ => show win0_1.index t (0 : Fin 2) * 200 + 1 * p.val = 200 * (t.val - 50) + p.val; rw [e10]; omega
    | ⟨1, _⟩ => show win0_1.index t (1 : Fin 2) * 10000 + 1 * jj.val = jj.val; rw [e11]; omega
  rw [h3]
  simp only [h1]

theorem mem_blk5 (t : Fin cfg0.N) (i : S10000x512.Idx) :
    i ∈ ((cfg0.win 5).blk t).view.set ↔ ∀ a : Fin 2, win0_5.index t a * S200x512.size a ≤ (i a).val ∧ (i a).val < win0_5.index t a * S200x512.size a + S200x512.size a := by
  show i ∈ ((View.whole main_v2_1).slice (win0_5.rect t)).set ↔ _
  rw [View.set_slice_whole, Rect.mem_set_unit]
  exact Iff.rfl

theorem cover5 (i : S10000x512.Idx) : ∃ t : Fin cfg0.N, (cfg0.win 5).flush t = true ∧ i ∈ ((cfg0.win 5).blk t).view.set := by
  have hi0 : (i 0).val < 10000 := idx2_lt0 i
  have hi1 : (i 1).val < 512 := idx2_lt1 i
  have ht : 50 + (i 0).val / 200 < cfg0.N := by rw [show cfg0.N = 100 from N_0]; omega
  obtain ⟨-, -, -, -, -, -, e50, e51, -, f5⟩ := (idx_facts ⟨50 + (i 0).val / 200, ht⟩).2 (by show 50 ≤ 50 + (i 0).val / 200; omega)
  refine ⟨⟨50 + (i 0).val / 200, ht⟩, f5, ?_⟩
  rw [mem_blk5]
  intro a
  match a with
  | ⟨0, _⟩ =>
    show win0_5.index ⟨50 + (i 0).val / 200, ht⟩ (0 : Fin 2) * 200 ≤ (i 0).val ∧ (i 0).val < win0_5.index ⟨50 + (i 0).val / 200, ht⟩ (0 : Fin 2) * 200 + 200
    rw [e50]; show (50 + (i 0).val / 200 - 50) * 200 ≤ (i 0).val ∧ (i 0).val < (50 + (i 0).val / 200 - 50) * 200 + 200; omega
  | ⟨1, _⟩ =>
    show win0_5.index ⟨50 + (i 0).val / 200, ht⟩ (1 : Fin 2) * 512 ≤ (i 1).val ∧ (i 1).val < win0_5.index ⟨50 + (i 0).val / 200, ht⟩ (1 : Fin 2) * 512 + 512
    rw [e51]; omega

theorem flush5_phase1 (t : Fin cfg0.N) (h : (cfg0.win 5).flush t = true) : 50 ≤ t.val := by
  by_contra hlt
  rw [Pass1.noflush5 t (by omega)] at h
  exact Bool.false_ne_true h

theorem final5 (c : Dev nD) : (Pass1.dat V c).arrAt 5 cfg0.N = G5 V c :=
  (Pass1.dat V c).arrAt_eq_of_cover 5 (G5 V c) (fun t h => flushed5_eq V c t (flush5_phase1 t h)) cover5

end Cert.KernelIdeal.Pass1V

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Pass2Value.lean ====
/-
  The second pallas_call on the extended reals: what its body stores, read at an entry. The product tile's entry
  (p, o) is the sum over j of tile(p, j) · operand(j, o); the stored entry is that row's shifted log-softmax.
-/
import proofs.«146001_g69913477644666_cont_9to1_m_1327_16_alg».proof.Proof.Pass2Body
import proofs.«146001_g69913477644666_cont_9to1_m_1327_16_alg».proof.Proof.Spec
import proofs.«146001_g69913477644666_cont_9to1_m_1327_16_alg».proof.Proof.LibPlainDot
import proofs.«146001_g69913477644666_cont_9to1_m_1327_16_alg».proof.Proof.LibRowMax
import proofs.«146001_g69913477644666_cont_9to1_m_1327_16_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pass2V

open Cert.KernelIdeal Cert.KernelIdeal.Gen
open Idealize.ShloMosaic Idealize.ShloMosaic.TcCoe Idealize.ShloMosaic.ValueIdx
open Idealize.ShloMosaic.Pipeline (Dat)

/-! ## The payload as a composition -/

/-- The product of the adjacency tile with the whole second operand. -/
def zTile (x0 : FVec Ideal S1000x10000 .bf16) (x1 : FVec Ideal S10000x512 .bf16) : FVec Ideal S1000x512 .f32 :=
  matmul dot_S1000x10000_S10000x512_S1000x512_1_0_0_1_n_n none (shapeCast S1000x10000 x0 shapeCasts_S1000x10000_S1000x10000)
    (shapeCast S10000x512 x1 shapeCasts_S10000x512_S10000x512) (constant S1000x512 .f32 0x00000000#32)

/-- Each row's maximum, kept as a column. -/
def mCol (z : FVec Ideal S1000x512 .f32) : FVec Ideal S1000x1 .f32 :=
  shapeCast S1000x1 (multiReduction .maximumf [1] S1000 z 0xFF800000#32 reduces_S1000x512_S1000 (.inl rfl) rfl) shapeCasts_S1000_S1000x1

/-- Each row's sum of exponentials of the shifted entries, kept as a column. -/
def sCol (z : FVec Ideal S1000x512 .f32) : FVec Ideal S1000x1 .f32 :=
  shapeCast S1000x1 (multiReduction .add [1] S1000 (exp (subf z (broadcastTo S1000x512 (mCol z) broadcasts_S1000x1_S1000x512)))
    0x00000000#32 reduces_S1000x512_S1000 (.inl rfl) rfl) shapeCasts_S1000_S1000x1

/-- The shifted log-softmax of every row of a tile, as the body spells it. -/
def lsmTile (z : FVec Ideal S1000x512 .f32) : FVec Ideal S1000x512 .f32 :=
  subf (subf z (broadcastTo S1000x512 (mCol z) broadcasts_S1000x1_S1000x512))
    (broadcastTo S1000x512 (log (sCol z)) broadcasts_S1000x1_S1000x512)

/-- The body's payload is that composition. -/
theorem pay_eq (x0 : Vec Ideal S1000x10000 .bf16) (x1 : Vec Ideal S10000x512 .bf16) :
    k1_pay1 (F := Ideal) x0 x1 = lsmTile (zTile x0 x1) := rfl

/-! ## Read at an entry -/

/-- Row p's maximum. -/
def rowMaxT (z : FVec Ideal S1000x512 .f32) (p : Fin 1000) : EReal :=
  (Finset.univ : Finset (Fin 512)).fold max (Ideal.ofBits .f32 0xFF800000#32) (fun k => z (ix2 p k))

theorem mCol_apply (z : FVec Ideal S1000x512 .f32) (p : Fin 1000) (u : Fin 1) : mCol z (ix2 p u) = rowMaxT z p := by
  unfold mCol rowMaxT
  rw [shapeCast_a_a1_apply]
  exact multiReduction_maximumf_axis1_apply z _ _ _ _ p

theorem zTile_apply (x0 : FVec Ideal S1000x10000 .bf16) (x1 : FVec Ideal S10000x512 .bf16) (p : Fin 1000) (o : Fin 512) :
    zTile x0 x1 (ix2 p o) = ∑ j : Fin 10000, x0 (ix2 p j) * x1 (ix2 j o) := by
  unfold zTile
  rw [shapeCast_self, shapeCast_self]
  exact PlainDot.matmul_zero_apply _ rfl none x0 x1 (ix2 p o)

theorem sCol_apply (z : FVec Ideal S1000x512 .f32) (p : Fin 1000) (u : Fin 1) :
    sCol z (ix2 p u) = ∑ k : Fin 512, Ideal.exp (z (ix2 p k) - rowMaxT z p) := by
  unfold sCol
  rw [shapeCast_a_a1_apply]
  refine (multiReduction_add_axis1_apply (exp (subf z (broadcastTo S1000x512 (mCol z) broadcasts_S1000x1_S1000x512))) _ _ _ p).trans ?_
  refine Finset.sum_congr rfl fun k _ => ?_
  show Ideal.exp (z (ix2 p k) - broadcastTo S1000x512 (mCol z) broadcasts_S1000x1_S1000x512 (ix2 p k)) = _
  rw [broadcastTo_a1_ab_apply, mCol_apply]

theorem lsmTile_apply (z : FVec Ideal S1000x512 .f32) (p : Fin 1000) (o : Fin 512) :
    lsmTile z (ix2 p o) = (z (ix2 p o) - rowMaxT z p) - Ideal.log (∑ k : Fin 512, Ideal.exp (z (ix2 p k) - rowMaxT z p)) := by
  unfold lsmTile
  rw [subf_apply, subf_apply, broadcastTo_a1_ab_apply, broadcastTo_a1_ab_apply, mCol_apply]
  show _ - Ideal.log (sCol z (ix2 p (0 : Fin 1))) = _
  rw [sCol_apply]

/-- A tile whose row p is row R of a whole-array function g has, in row p, g's shifted log-softmax of row R. -/
theorem lsm_block (z : FVec Ideal S1000x512 .f32) (g : Cert.Spec.Sx.Idx → EReal) (R : Fin 10000) (p : Fin 1000)
    (hz : ∀ k : Fin 512, z (ix2 p k) = g (ix2 R k)) (o : Fin 512) : lsmTile z (ix2 p o) = Cert.Spec.lsm g (ix2 R o) := by
  rw [lsmTile_apply]
  have hm : rowMaxT z p = Cert.Spec.rowMax g R := by
    unfold rowMaxT Cert.Spec.rowMax
    exact congrArg (fun f => Finset.fold max (Ideal.ofBits .f32 0xFF800000#32) f (Finset.univ : Finset (Fin 512))) (funext hz)
  rw [hm]
  unfold Cert.Spec.lsm
  simp only [hz]

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- Point t's tile of the first operand and of the output starts at row block t; the second operand's one block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the output array ends holding: the shifted log-softmax of each row of the product of the two operands as the region finds them. -/
def G (c : Dev nD) : Cert.Spec.Sx.Idx → EReal := Cert.Spec.lsm (Cert.Spec.agg (V c main_v2_0) (V c main_v2_1))

/-- What point t writes back is block t of `G`. -/
theorem flushed_eq (c : Dev nD) (t : Fin cfg1.N) :
    (Pass2.dat V c).flushed 2 t = ((cfg1.win 2).blk t).view.read (Elt Ideal) (G V c) := by
  show (cfg1.win 2).cut (grid1.coords t) ((Pass2.dat V c).after 2 t) = _
  rw [Pass2.after_2]
  unfold Pass2.outTile
  rw [View.canon_unit_zero hz]
  simp only [View.ld_unit_zero (S := S1000x10000) hz, View.ld_unit_zero (S := S10000x512) hz]
  rw [pay_eq]
  obtain ⟨e00, e01, e10, e11, e20, e21⟩ := idx_facts t
  funext j
  obtain ⟨p, o, rfl⟩ : ∃ (p : Fin 1000) (o : Fin 512), j = ix2 p o := ⟨j 0, j 1, eq_ix2 j⟩
  have hN : t.val < 10 := lt_of_lt_of_eq t.isLt (show cfg1.N = 10 from N_1)
  have hR : 1000 * t.val + p.val < 10000 := by have := p.isLt; omega
  have hemb : ((cfg1.win 2).blk t).view.emb (ix2 p o) = ix2 (⟨1000 * t.val + p.val, hR⟩ : Fin 10000) o := by
    funext a; apply Fin.ext
    match a with
    | ⟨0, _⟩ => show win1_2.index t (0 : Fin 2) * 1000 + 1 * p.val = 1000 * t.val + p.val; rw [e20]; omega
    | ⟨1, _⟩ => show win1_2.index t (1 : Fin 2) * 512 + 1 * o.val = o.val; rw [e21]; omega
  show lsmTile (zTile (Pass2.tile V c 0 t) (Pass2.tile V c 1 t)) (ix2 p o) = G V c (((cfg1.win 2).blk t).view.emb (ix2 p o))
  rw [hemb]
  unfold G
  refine lsm_block _ _ ⟨1000 * t.val + p.val, hR⟩ p (fun k => ?_) o
  rw [zTile_apply]
  unfold Cert.Spec.agg
  refine Finset.sum_congr rfl fun j _ => ?_
  have h0 : Pass2.tile V c 0 t (ix2 p j) = V c main_v2_0 (ix2 (⟨1000 * t.val + p.val, hR⟩ : Fin 10000) j) := by
    show V c main_v2_0 (((cfg1.win 0).blk t).view.emb (ix2 p j)) = _
    refine congrArg (V c main_v2_0) ?_
    funext a; apply Fin.ext
    match a with
    | ⟨0, _⟩ => show win1_0.index t (0 : Fin 2) * 1000 + 1 * p.val = 1000 * t.val + p.val; rw [e00]; omega
    | ⟨1, _⟩ => show win1_0.index t (1 : Fin 2) * 10000 + 1 * j.val = j.val; rw [e01]; omega
  have h1 : Pass2.tile V c 1 t (ix2 j k) = V c main_v2_1 (ix2 j k) := by
    show V c main_v2_1 (((cfg1.win 1).blk t).view.emb (ix2 j k)) = _
    refine congrArg (V c main_v2_1) ?_
    funext a; apply Fin.ext
    match a with
    | ⟨0, _⟩ => show win1_1.index t (0 : Fin 2) * 10000 + 1 * j.val = j.val; rw [e10]; omega
    | ⟨1, _⟩ => show win1_1.index t (1 : Fin 2) * 512 + 1 * k.val = k.val; rw [e11]; omega
  rw [h0, h1]

/-- An index is in point t's output block iff its row is one of the point's thousand. -/
theorem mem_blk (t : Fin cfg1.N) (i : S10000x512.Idx) :
    i ∈ ((cfg1.win 2).blk t).view.set ↔ ∀ a : Fin 2, win1_2.index t a * S1000x512.size a ≤ (i a).val ∧ (i a).val < win1_2.index t a * S1000x512.size a + S1000x512.size a := by
  show i ∈ ((View.whole main_v3).slice (win1_2.rect t)).set ↔ _
  rw [View.set_slice_whole, Rect.mem_set_unit]
  exact Iff.rfl

/-- Every row belongs to the point row / 1000, which writes its block back. -/
theorem cover (i : S10000x512.Idx) : ∃ t : Fin cfg1.N, (cfg1.win 2).flush t = true ∧ i ∈ ((cfg1.win 2).blk t).view.set := by
  have hi0 : (i 0).val < 10000 := idx2_lt0 i
  have hi1 : (i 1).val < 512 := idx2_lt1 i
  have ht : (i 0).val / 1000 < cfg1.N := by rw [show cfg1.N = 10 from N_1]; omega
  refine ⟨⟨(i 0).val / 1000, ht⟩, flush1_2 _, ?_⟩
  obtain ⟨-, -, -, -, e20, e21⟩ := idx_facts ⟨(i 0).val / 1000, ht⟩
  rw [mem_blk]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e20]; show (i 0).val / 1000 * 1000 ≤ (i 0).val ∧ (i 0).val < (i 0).val / 1000 * 1000 + 1000; omega
  | ⟨1, _⟩ =>
    show win1_2.index ⟨(i 0).val / 1000, ht⟩ (1 : Fin 2) * 512 ≤ (i 1).val ∧ (i 1).val < win1_2.index ⟨(i 0).val / 1000, ht⟩ (1 : Fin 2) * 512 + 512
    rw [e21]; omega

/-- The output array after the call. -/
theorem final (c : Dev nD) : (Pass2.dat V c).arrAt 2 cfg1.N = G V c :=
  (Pass2.dat V c).arrAt_eq_of_cover 2 (G V c) (fun t _ => flushed_eq V c t) (cover)

end Cert.KernelIdeal.Pass2V

end
-- ==== Proof.KernelValue.lean ====
/-
  The kernel program's result on the extended reals. After the run the result buffer holds the second call's output
  array; that is the row-wise shifted log-softmax of (first output) · (second output) of the first call; the first
  output is the adjacency matrix, the second relu (A · (x · W1ᵀ)) · W2ᵀ with W1, W2 as the two host casts left them —
  and a cast to a narrower format is the identity on the extended reals. So the result is the spec of the four arguments.
-/
import proofs.«146001_g69913477644666_cont_9to1_m_1327_16_alg».proof.Proof.MainRun
import proofs.«146001_g69913477644666_cont_9to1_m_1327_16_alg».proof.Proof.Pass1Value
import proofs.«146001_g69913477644666_cont_9to1_m_1327_16_alg».proof.Proof.Pass2Value
import proofs.«146001_g69913477644666_cont_9to1_m_1327_16_alg».proof.Proof.Spec
import Idealize.ShloMosaic.Lib.StableHlo.Run

set_option maxRecDepth 16384

noncomputable section

namespace Cert.KernelIdeal.WholeV

open Cert.KernelIdeal Cert.KernelIdeal.Gen Cert.KernelIdeal.Whole
open Idealize.ShloMosaic Idealize.ShloMosaic.TcCoe Idealize.ShloMosaic.StableHlo

variable (m : (ℓ : Loc nD τ sig) → Buf (Elt Ideal) ℓ)

/-- The cast of W1 is W1. -/
theorem cast_w1 (c : Dev nD) : (Whole.V1 m c main_v0 : S512x512.Idx → EReal) = (m ((c : Thread nD τ).loc main_arg2) : S512x512.Idx → EReal) := by
  show StableHlo.after hostOps0 (fun b => m (c, b)) (Proc.devRef .tc main_v0) = _
  after_results
  rfl

/-- The cast of W2 is W2. -/
theorem cast_w2 (c : Dev nD) : (Whole.V1 m c main_v1 : S512x512.Idx → EReal) = (m ((c : Thread nD τ).loc main_arg3) : S512x512.Idx → EReal) := by
  show StableHlo.after hostOps0 (fun b => m (c, b)) (Proc.devRef .tc main_v1) = _
  after_results
  rfl

theorem x_kept (c : Dev nD) : Whole.V1 m c main_arg0 = m ((c : Thread nD τ).loc main_arg0) := Gen.V1_of m c main_arg0 (by decide)
theorem a_kept (c : Dev nD) : Whole.V1 m c main_arg1 = m ((c : Thread nD τ).loc main_arg1) := Gen.V1_of m c main_arg1 (by decide)

/-- The result buffer after the run. -/
theorem out_eq (c : Dev nD) :
    (W3 m c (Proc.devRef .tc main_v3) : Cert.Spec.Sx.Idx → EReal)
      = Cert.Spec.out (m ((c : Thread nD τ).loc main_arg0)) (m ((c : Thread nD τ).loc main_arg1))
          (m ((c : Thread nD τ).loc main_arg2)) (m ((c : Thread nD τ).loc main_arg3)) := by
  have h3 : W3 m c (Proc.devRef .tc main_v3) = (Pass2.dat (Whole.V2 m) c).arrAt 2 cfg1.N := W3_arr m c 2
  have a4 : Whole.V2 m c main_v2_0 = (Pass1.dat (Whole.V1 m) c).arrAt 4 cfg0.N := W2_arr m c 4
  have a5 : Whole.V2 m c main_v2_1 = (Pass1.dat (Whole.V1 m) c).arrAt 5 cfg0.N := W2_arr m c 5
  rw [h3, Pass2V.final]
  unfold Pass2V.G
  rw [a4, a5, Pass1V.final4, Pass1V.final5]
  unfold Pass1V.G4 Pass1V.G5
  rw [Pass1V.xw1_eq, cast_w1, cast_w2, x_kept, a_kept]
  rfl

end Cert.KernelIdeal.WholeV

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.RefValue.lean ====
/-
  The reference on the extended reals is the spec. Stage by stage: the transposed weight under a plain product is the
  product against the transpose; the two products with the adjacency matrix are plain; relu is the clamp; and the
  outlined log-softmax subtracts the row maximum (its extra maximum with minus infinity changes nothing) and then the
  logarithm of the row's sum (the zero it is accumulated from changes nothing).
-/
import proofs.«146001_g69913477644666_cont_9to1_m_1327_16_alg».proof.Proof.RefReadP
import proofs.«146001_g69913477644666_cont_9to1_m_1327_16_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S10000x512, .f32⟩ : BufTy).Contents (Elt Ideal)) (x1 : (⟨S10000x10000, .f32⟩ : BufTy).Contents (Elt Ideal))
  (x2 x3 : (⟨S512x512, .f32⟩ : BufTy).Contents (Elt Ideal))

/-! ## The four products and the clamp -/

theorem v1_eq : val_main_v1 (F := Ideal) x0 x2 = Cert.Spec.mulT x0 x2 := by
  funext i
  rw [val_main_v1_apply]
  unfold Cert.Spec.mulT
  refine Finset.sum_congr rfl fun k _ => ?_
  rw [val_main_v0_apply]
  have el : lidx_main_v1 i k = ix2 (i 0) k := funext fun a => Fin.ext (by match a with | ⟨0, _⟩ => rfl | ⟨1, _⟩ => rfl)
  have er : idx_main_v0 (ridx_main_v1 i k) = ix2 (i 1) k := funext fun a => Fin.ext (by match a with | ⟨0, _⟩ => rfl | ⟨1, _⟩ => rfl)
  rw [el, er]
  rfl

theorem v2_eq : val_main_v2 (F := Ideal) x0 x1 x2 = Cert.Spec.agg x1 (val_main_v1 (F := Ideal) x0 x2) := by
  funext i
  rw [val_main_v2_apply]
  unfold Cert.Spec.agg
  refine Finset.sum_congr rfl fun k _ => ?_
  have el : lidx_main_v2 i k = ix2 (i 0) k := funext fun a => Fin.ext (by match a with | ⟨0, _⟩ => rfl | ⟨1, _⟩ => rfl)
  have er : ridx_main_v2 i k = ix2 k (i 1) := funext fun a => Fin.ext (by match a with | ⟨0, _⟩ => rfl | ⟨1, _⟩ => rfl)
  rw [el, er]
  rfl

theorem v3_eq : val_main_v3 (F := Ideal) x0 x1 x2 = Cert.Spec.relu (val_main_v2 (F := Ideal) x0 x1 x2) := by
  funext i
  rw [val_main_v3_apply, val_main_call0_v0_apply, val_main_call0_cst_apply]
  rfl

theorem v5_eq : val_main_v5 (F := Ideal) x0 x1 x2 x3 = Cert.Spec.mulT (val_main_v3 (F := Ideal) x0 x1 x2) x3 := by
  funext i
  rw [val_main_v5_apply]
  unfold Cert.Spec.mulT
  refine Finset.sum_congr rfl fun k _ => ?_
  rw [val_main_v4_apply]
  have el : lidx_main_v5 i k = ix2 (i 0) k := funext fun a => Fin.ext (by match a with | ⟨0, _⟩ => rfl | ⟨1, _⟩ => rfl)
  have er : idx_main_v4 (ridx_main_v5 i k) = ix2 (i 1) k := funext fun a => Fin.ext (by match a with | ⟨0, _⟩ => rfl | ⟨1, _⟩ => rfl)
  rw [el, er]
  rfl

theorem v6_eq : val_main_v6 (F := Ideal) x0 x1 x2 x3 = Cert.Spec.agg x1 (val_main_v5 (F := Ideal) x0 x1 x2 x3) := by
  funext i
  rw [val_main_v6_apply]
  unfold Cert.Spec.agg
  refine Finset.sum_congr rfl fun k _ => ?_
  have el : lidx_main_v6 i k = ix2 (i 0) k := funext fun a => Fin.ext (by match a with | ⟨0, _⟩ => rfl | ⟨1, _⟩ => rfl)
  have er : ridx_main_v6 i k = ix2 k (i 1) := funext fun a => Fin.ext (by match a with | ⟨0, _⟩ => rfl | ⟨1, _⟩ => rfl)
  rw [el, er]
  rfl

/-! ## The log-softmax -/

/-- Minus infinity is neutral for the maximum. -/
theorem max_negInf (y : EReal) : max (Ideal.ofBits .f32 0xFF800000#32) y = y := by
  simp [Ideal.ofBits, Ideal.ieee]

/-- The host's maximum over the second axis, from minus infinity, at row r. -/
theorem hostRowMax (z : FVec Ideal S10000x512 .f32) (r : Fin 10000) :
    Host.reduce FloatOps.maximumf z (constant (F := Ideal) S_ .f32 0xFF800000#32) reducesTo_S10000x512_S10000_d1 h_S_ (ix1 r)
      = Cert.Spec.rowMax z r := by
  rw [Host.reduce_eq_fold_single FloatOps.maximumf z _ reducesTo_S10000x512_S10000_d1 (by decide) h_S_]
  unfold Cert.Spec.rowMax
  refine congrArg (fun f => Finset.fold max (Ideal.ofBits .f32 0xFF800000#32) f (Finset.univ : Finset (Fin 512))) ?_
  funext k
  refine congrArg z ?_
  funext c; apply Fin.ext
  match c with
  | ⟨0, _⟩ => rfl
  | ⟨1, _⟩ => rfl

/-- The row maximum the reference subtracts. -/
theorem m_eq (j : S10000x512.Idx) :
    val_main_call1_v4 (F := Ideal) x0 x1 x2 x3 j = Cert.Spec.rowMax (val_main_v6 (F := Ideal) x0 x1 x2 x3) (j 0) := by
  rw [val_main_call1_v4_apply, val_main_call1_v3_apply, val_main_call1_v2_apply, val_main_call1_v1_apply, val_main_call1_cst_0_apply]
  have e : idx_main_call1_v3 (idx_main_call1_v4 j) = ix1 (⟨(j 0).val, idx2_lt0 j⟩ : Fin 10000) := funext fun a => Fin.ext (by match a with | ⟨0, _⟩ => rfl)
  rw [e]
  unfold val_main_call1_v0 val_main_call1_cst
  rw [hostRowMax]
  exact max_negInf _

theorem shifted_eq (j : S10000x512.Idx) :
    val_main_call1_v5 (F := Ideal) x0 x1 x2 x3 j
      = val_main_v6 (F := Ideal) x0 x1 x2 x3 j - Cert.Spec.rowMax (val_main_v6 (F := Ideal) x0 x1 x2 x3) (j 0) := by
  rw [val_main_call1_v5_apply, m_eq]
  rfl

/-- The logarithm of the row's sum of exponentials that the reference subtracts last. -/
theorem s_eq (j : S10000x512.Idx) :
    val_main_call1_v10 (F := Ideal) x0 x1 x2 x3 j
      = Ideal.log (∑ o : Fin 512, Ideal.exp (val_main_v6 (F := Ideal) x0 x1 x2 x3 (ix2 (j 0) o)
          - Cert.Spec.rowMax (val_main_v6 (F := Ideal) x0 x1 x2 x3) (j 0))) := by
  rw [val_main_call1_v10_apply, val_main_call1_v9_apply, val_main_call1_v8_apply, val_main_call1_v7_apply, val_main_call1_cst_1_apply]
  show Ideal.log (Ideal.ofBits .f32 0x00000000#32 + _) = _
  rw [Ideal.ofBits_zero_f32, zero_add]
  refine congrArg Ideal.log (Finset.sum_congr rfl fun k _ => ?_)
  have e : idx_main_call1_v7 (idx_main_call1_v8 (idx_main_call1_v10 j)) k = ix2 (⟨(j 0).val, idx2_lt0 j⟩ : Fin 10000) k :=
    funext fun a => Fin.ext (by match a with | ⟨0, _⟩ => rfl | ⟨1, _⟩ => rfl)
  rw [e, val_main_call1_v6_apply, shifted_eq]
  rfl

theorem v7_eq : val_main_v7 (F := Ideal) x0 x1 x2 x3 = Cert.Spec.lsm (val_main_v6 (F := Ideal) x0 x1 x2 x3) := by
  funext i
  rw [val_main_v7_apply, shifted_eq, s_eq]
  rfl

/-- The reference's result is the spec of its four arguments. -/
theorem ref_eq : val_main_v7 (F := Ideal) x0 x1 x2 x3 = Cert.Spec.out x0 x1 x2 x3 := by
  rw [v7_eq, v6_eq, v5_eq, v3_eq, v2_eq, v1_eq]
  rfl

end Cert.ReferenceIdeal.RefValue

end
-- ==== Proof.lean ====
/-
  The kernel computes a two-layer graph network's forward pass, out = lsm (A · (relu (A · (x · W1ᵀ)) · W2ᵀ)), in two
  pallas_calls: the first fills a scratch with x · W1ᵀ slab by slab and then, tile by tile of the adjacency matrix A,
  writes A back in the narrower format together with relu (A · scratch) · W2ᵀ; the second multiplies tiles of the copy
  of A by that array and stores each row's shifted log-softmax. The reference is the same chain as host operations.

  Frames: each kernel program is followed item by item — the two host casts, then each call from the buffers it is
  entered with to the buffers it leaves — and no item writes an argument; the reference's frame is its run.
  The idealization rewrote no operation. On the extended reals a change of float format is the identity and a sum may
  be taken in any order, so both results are that one function of the four arguments, entry by entry; no finiteness of
  the inputs is used.
-/
import proofs.«146001_g69913477644666_cont_9to1_m_1327_16_alg».proof.Defs
import proofs.«146001_g69913477644666_cont_9to1_m_1327_16_alg».proof.Proof.Gen.Kernel
import proofs.«146001_g69913477644666_cont_9to1_m_1327_16_alg».proof.Proof.Gen.KernelIdeal
import proofs.«146001_g69913477644666_cont_9to1_m_1327_16_alg».proof.Proof.Gen.ReferenceIdeal
import proofs.«146001_g69913477644666_cont_9to1_m_1327_16_alg».proof.Proof.Gen.Pre_finite_inputs
import proofs.«146001_g69913477644666_cont_9to1_m_1327_16_alg».proof.Proof.MainRun
import proofs.«146001_g69913477644666_cont_9to1_m_1327_16_alg».proof.Proof.KMainRun
import proofs.«146001_g69913477644666_cont_9to1_m_1327_16_alg».proof.Proof.KernelValue
import proofs.«146001_g69913477644666_cont_9to1_m_1327_16_alg».proof.Proof.RefRunP
import proofs.«146001_g69913477644666_cont_9to1_m_1327_16_alg».proof.Proof.RefReadP
import proofs.«146001_g69913477644666_cont_9to1_m_1327_16_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Whole.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the spec of the four arguments in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Whole.run_all (F := Ideal) m ρ)
    exact ⟨(h c _ (Cert.KernelIdeal.Whole.mem_uc Cert.KernelIdeal.main_v3 (by decide))).trans (Cert.KernelIdeal.WholeV.out_eq m c),
      (h c _ (Cert.KernelIdeal.Whole.mem_uc Cert.KernelIdeal.main_arg0 (by decide))).trans (Cert.KernelIdeal.Whole.W3_main_arg0 m c),
      (h c _ (Cert.KernelIdeal.Whole.mem_uc Cert.KernelIdeal.main_arg1 (by decide))).trans (Cert.KernelIdeal.Whole.W3_main_arg1 m c),
      (h c _ (Cert.KernelIdeal.Whole.mem_uc Cert.KernelIdeal.main_arg2 (by decide))).trans (Cert.KernelIdeal.Whole.W3_main_arg2 m c),
      (h c _ (Cert.KernelIdeal.Whole.mem_uc Cert.KernelIdeal.main_arg3 (by decide))).trans (Cert.KernelIdeal.Whole.W3_main_arg3 m c)⟩
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v7_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
